-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg10 : FVec F S2 .f32) (main_v33 : IVec S_ 1) : IVec S_ 1 :=
  let main_v34 : FVec F S2 .f32 := Host.absf main_arg10
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg7 : FVec F S128x128 .f32) (main_arg8 : FVec F S128 .f32) (main_arg9 : FVec F S128x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg9
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg10 main_v33

def fn {F : FTy → Type} [FloatOps F] (main_arg0 : IVec S1600000 32) (main_arg1 : IVec S1600000 32) (main_arg2 : IVec S100000 32) (main_arg3 : FVec F S1x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S1x128 .f32 := Host.absf main_arg3
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S128 .f32 := Host.absf main_arg4
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_v13 main_v16
-- ==== Kernel.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S100000x1 : Shape := ⟨2, ![100000, 1]⟩
abbrev S100000x2 : Shape := ⟨2, ![100000, 2]⟩
abbrev S100000x128 : Shape := ⟨2, ![100000, 128]⟩
abbrev S5000x1 : Shape := ⟨2, ![5000, 1]⟩
abbrev S5000x2 : Shape := ⟨2, ![5000, 2]⟩
abbrev S5000x128 : Shape := ⟨2, ![5000, 128]⟩
abbrev S1600000x128 : Shape := ⟨2, ![1600000, 128]⟩
abbrev S64 : Shape := ⟨1, ![64]⟩
abbrev S64x128 : Shape := ⟨2, ![64, 128]⟩
abbrev S64x1 : Shape := ⟨2, ![64, 1]⟩
abbrev S64x2 : Shape := ⟨2, ![64, 2]⟩
abbrev S1x2 : Shape := ⟨2, ![1, 2]⟩

abbrev nBuf : Space → Nat
  | .hbm => 111
  | .vmem => 24
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000, .i32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x1, .f32⟩
  | .hbm, ⟨37, _⟩ => ⟨S100000x2, .f32⟩
  | .hbm, ⟨38, _⟩ => ⟨S100000x1, .f32⟩
  | .hbm, ⟨39, _⟩ => ⟨S100000x1, .f32⟩
  | .hbm, ⟨40, _⟩ => ⟨S100000x1, .f32⟩
  | .hbm, ⟨41, _⟩ => ⟨S100000x1, .bf16⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x1, .bf16⟩
  | .hbm, ⟨51, _⟩ => ⟨S1600000x1, .f32⟩
  | .hbm, ⟨52, _⟩ => ⟨S_, .f32⟩
  | .hbm, ⟨53, _⟩ => ⟨S100000x1, .f32⟩
  | .hbm, ⟨54, _⟩ => ⟨S1600000x1, .i32⟩
  | .hbm, ⟨55, _⟩ => ⟨S100000x1, .f32⟩
  | .hbm, ⟨56, _⟩ => ⟨S1x128, .f32⟩
  | .hbm, ⟨57, _⟩ => ⟨S100000x128, .bf16⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .bf16⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S1x128, .f32⟩
  | .hbm, ⟨73, _⟩ => ⟨S100000x128, .bf16⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .bf16⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S64, .f32⟩
  | .hbm, ⟨94, _⟩ => ⟨S100000x1, .i32⟩
  | .hbm, ⟨95, _⟩ => ⟨S64, .f32⟩
  | .hbm, ⟨96, _⟩ => ⟨S_, .f32⟩
  | .hbm, ⟨97, _⟩ => ⟨S64x128, .f32⟩
  | .hbm, ⟨98, _⟩ => ⟨S100000x1, .i32⟩
  | .hbm, ⟨99, _⟩ => ⟨S64x128, .f32⟩
  | .hbm, ⟨100, _⟩ => ⟨S_, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x128, .f32⟩
  | .hbm, ⟨106, _⟩ => ⟨S64x128, .f32⟩
  | .hbm, ⟨107, _⟩ => ⟨S64x2, .f32⟩
  | .hbm, ⟨108, _⟩ => ⟨S1x2, .f32⟩
  | .hbm, ⟨109, _⟩ => ⟨S64x2, .f32⟩
  | .hbm, ⟨110, _⟩ => ⟨S64x2, .f32⟩
  | .local _ .vmem, ⟨0, _⟩ => ⟨S5000x1, .f32⟩
  | .local _ .vmem, ⟨1, _⟩ => ⟨S5000x1, .f32⟩
  | .local _ .vmem, ⟨2, _⟩ => ⟨S5000x2, .f32⟩
  | .local _ .vmem, ⟨3, _⟩ => ⟨S5000x2, .f32⟩
  | .local _ .vmem, ⟨4, _⟩ => ⟨S1x128, .f32⟩
  | .local _ .vmem, ⟨5, _⟩ => ⟨S1x128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x2, .f32⟩
  | .local _ .vmem, ⟨11, _⟩ => ⟨S5000x2, .f32⟩
  | .local _ .vmem, ⟨12, _⟩ => ⟨S128x128, .f32⟩
  | .local _ .vmem, ⟨13, _⟩ => ⟨S1x128, .f32⟩
  | .local _ .vmem, ⟨14, _⟩ => ⟨S5000x128, .bf16⟩
  | .local _ .vmem, ⟨15, _⟩ => ⟨S5000x128, .bf16⟩
  | .local _ .vmem, ⟨16, _⟩ => ⟨S5000x128, .f32⟩
  | .local _ .vmem, ⟨17, _⟩ => ⟨S5000x128, .f32⟩
  | .local _ .vmem, ⟨18, _⟩ => ⟨S5000x2, .f32⟩
  | .local _ .vmem, ⟨19, _⟩ => ⟨S5000x2, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_14 : Ref sig .tc := ⟨.hbm, 90, rfl⟩
abbrev main_v59 : Ref sig .tc := ⟨.hbm, 91, rfl⟩
abbrev main_cst_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_16 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_17 : Ref sig .tc := ⟨.hbm, 100, rfl⟩
abbrev main_call2_v0 : Ref sig .tc := ⟨.hbm, 101, rfl⟩
abbrev main_call2_v1 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bitsLt_bf16_f32 : FTy.bits .bf16 < FTy.bits .f32
  bcast_S_S100000x1 : S_.BroadcastsInDim S100000x1 (![] : Fin 0 → Fin S100000x1.rank)
  shapeCasts_S128_S1x128 : S128.ShapeCasts S1x128
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S5000x1_S1x128_S5000x128_1_0_0_1_n_n_wf : DotDims.WF S5000x1 S1x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S100000x2.size a
  hwx2_1 : ∀ i : grid2.Coords, EltTy.bits .f32 = 32 ∨ (Rect.block (s := S100000x2) S5000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_v30) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S64 : Shape := ⟨1, ![64]⟩
abbrev S64x128 : Shape := ⟨2, ![64, 128]⟩
abbrev S64x1 : Shape := ⟨2, ![64, 1]⟩
abbrev S64x2 : Shape := ⟨2, ![64, 2]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S1600000, .i32⟩
  | 1 => ⟨S1600000, .i32⟩
  | 2 => ⟨S100000, .i32⟩
  | 3 => ⟨S1x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x1, .f32⟩
  | 37 => ⟨S100000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x1, .f32⟩
  | 47 => ⟨S_, .f32⟩
  | 48 => ⟨S100000x1, .f32⟩
  | 49 => ⟨S1600000x1, .i32⟩
  | 50 => ⟨S100000x1, .f32⟩
  | 51 => ⟨S100000x1, .f32⟩
  | 52 => ⟨S100000x1, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x1, .f32⟩
  | 61 => ⟨S100000x128, .f32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S100000x1, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x1, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S100000x1, .f32⟩
  | 103 => ⟨S100000x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S_, .f32⟩
  | 113 => ⟨S100000, .f32⟩
  | 114 => ⟨S_, .f32⟩
  | 115 => ⟨S64, .f32⟩
  | 116 => ⟨S100000x1, .i32⟩
  | 117 => ⟨S64, .f32⟩
  | 118 => ⟨S_, .f32⟩
  | 119 => ⟨S64x128, .f32⟩
  | 120 => ⟨S100000x1, .i32⟩
  | 121 => ⟨S64x128, .f32⟩
  | 122 => ⟨S_, .f32⟩
  | 123 => ⟨S_, .f32⟩
  | 124 => ⟨S64, .f32⟩
  | 125 => ⟨S64, .f32⟩
  | 126 => ⟨S64x1, .f32⟩
  | 127 => ⟨S64x128, .f32⟩
  | _ => ⟨S1600000, .i32⟩

abbrev hbmTy0_1 (i : Nat) : BufTy := match i % 128 with
  | 0 => ⟨S64x128, .f32⟩
  | 1 => ⟨S64x2, .f32⟩
  | 2 => ⟨S1x2, .f32⟩
  | 3 => ⟨S64x2, .f32⟩
  | 4 => ⟨S64x2, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call2_cst : Ref sig .tc := ⟨.hbm, 57, rfl⟩
abbrev main_call2_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call3_cst : Ref sig .tc := ⟨.hbm, 83, rfl⟩
abbrev main_call3_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_11 : Ref sig .tc := ⟨.hbm, 89, rfl⟩
abbrev main_v57 : Ref sig .tc := ⟨.hbm, 90, rfl⟩
abbrev main_v58 : Ref sig .tc := ⟨.hbm, 91, rfl⟩
abbrev main_c_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call4_cst : Ref sig .tc := ⟨.hbm, 109, rfl⟩
abbrev main_call4_v0 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_16 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_17 : Ref sig .tc := ⟨.hbm, 122, rfl⟩
abbrev main_call5_v0 : Ref sig .tc := ⟨.hbm, 123, rfl⟩
abbrev main_call5_v1 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x128_S100000x128_1_0_0_1_n_n_wf : DotDims.WF S100000x1 S1x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x2_S64x2_1_0_0_1_n_n_wf : DotDims.WF S64x128 S128x2 S64x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KernelRun.lean ====
/-
  The kernel program's run with its RESULT kept. The program is three tiled regions (one per graph-convolution layer)
  among stretches of host operations; the generated frame folds the buffer contents through these thirteen segments,
  from the launch memory to the contents `W13` at the return, and then keeps only the argument arrays. Here the same
  fold is read once more at the result buffer: every weakly fair execution terminates without a fault, the result
  array ends at what the last boundary's contents hold for it, and the eleven argument arrays end as launched.
  What `W13` holds at the result buffer — the pooled, classified node features — is read in the modules that follow.
-/
import proofs.«181485_j46694884442368_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result array ends at the last
    boundary's contents and every argument array as launched. -/
theorem run_result : θ_run defs (onTc (τ := τ) (main (F := F))) ⟨m, fun _ => 0, ρ⟩ (fun r => ∀ c : Dev nD,
      r.2.mem ((c.tc : Thread nD τ).loc main_v73) = W13 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v73 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.Hand

end
-- ==== Proof.DenseLayer.lean ====
/-
  One dense stage of the graph convolution, read at a row `r` (a node) and a column `j` (an output feature), over the
  extended reals:

      relu( (∑ₖ (agg r k · nd r) · W k j) + b j )          and the same times `ns r`.

  `agg` is the node's aggregated message (K columns wide: 1 for the first layer, 128 for the other two), `nd` the
  inverse square root of the node's clamped in-degree, `ns` that of its clamped out-degree, `W` the layer's weight
  and `b` its bias. The operations stand in the order both programs apply them: the scaling by `nd` inside the
  contraction, the bias after it, the comparison with the zero word after the bias, the scaling by `ns` last. Nothing
  here is rearranged, so no law of the extended reals is needed beyond reading each operation at an index; in
  particular no factor crosses the sum, and the statement holds at infinite entries as well as at finite ones.
  The comparison is with the f32 zero word read at the ideal instance, kept as that word on both sides.
-/
import Idealize.ShloMosaic.PureOps.Ideal
import Idealize.ShloMosaic.Lib.ValueIdx

noncomputable section

open scoped BigOperators

namespace Cert.GraphConv

open Idealize.ShloMosaic Idealize.ShloMosaic.ValueIdx

/-- The value `relu` compares with: the f32 word of +0.0 at the ideal instance. -/
abbrev zeroWord : EReal := Ideal.ofBits .f32 0x00000000#32

/-- `relu((agg · nd) W + b)` at node `r` and feature `j`, the contraction over the `K` input features. -/
def dense {K : Nat} (agg : (⟨2, ![100000, K]⟩ : Shape).Idx → EReal) (nd : Fin 100000 → EReal)
    (W : (⟨2, ![K, 128]⟩ : Shape).Idx → EReal) (b : Fin 128 → EReal) (r : Fin 100000) (j : Fin 128) : EReal :=
  max ((∑ k : Fin K, (agg (ix2 r k) * nd r) * W (ix2 k j)) + b j) zeroWord

/-- The last layer's node features: the dense stage at every node and feature. -/
def denseRelu {K : Nat} (agg : (⟨2, ![100000, K]⟩ : Shape).Idx → EReal) (nd : Fin 100000 → EReal)
    (W : (⟨2, ![K, 128]⟩ : Shape).Idx → EReal) (b : Fin 128 → EReal) : (⟨2, ![100000, 128]⟩ : Shape).Idx → EReal :=
  fun i => dense agg nd W b (i 0) (i 1)

/-- The first two layers' node features as the next gather reads them: the dense stage, each row scaled by `ns`. -/
def denseReluScaled {K : Nat} (agg : (⟨2, ![100000, K]⟩ : Shape).Idx → EReal) (nd ns : Fin 100000 → EReal)
    (W : (⟨2, ![K, 128]⟩ : Shape).Idx → EReal) (b : Fin 128 → EReal) : (⟨2, ![100000, 128]⟩ : Shape).Idx → EReal :=
  fun i => dense agg nd W b (i 0) (i 1) * ns (i 0)

theorem denseRelu_apply {K : Nat} (agg : (⟨2, ![100000, K]⟩ : Shape).Idx → EReal) (nd : Fin 100000 → EReal)
    (W : (⟨2, ![K, 128]⟩ : Shape).Idx → EReal) (b : Fin 128 → EReal) (r : Fin 100000) (j : Fin 128) :
    denseRelu agg nd W b (ix2 r j) = dense agg nd W b r j := rfl

theorem denseReluScaled_apply {K : Nat} (agg : (⟨2, ![100000, K]⟩ : Shape).Idx → EReal) (nd ns : Fin 100000 → EReal)
    (W : (⟨2, ![K, 128]⟩ : Shape).Idx → EReal) (b : Fin 128 → EReal) (r : Fin 100000) (j : Fin 128) :
    denseReluScaled agg nd ns W b (ix2 r j) = dense agg nd W b r j * ns r := rfl

end Cert.GraphConv

end
-- ==== Proof.Payloads.lean ====
/-
  What one grid point of each tiled region stores, read at a row `p` and a column `q` of its 5000-row block.

  Each point loads a block of aggregated messages (5000 rows), the matching 5000 rows of the packed norms (two
  columns), the layer's whole weight and its bias as one row, and stores
      max( (rows · in-degree-norm column) × weight + bias row , 0 )      [times the out-degree-norm column, layers 1–2].
  At the ideal instance every change of float format in that body is the identity, the block product into a zero
  accumulator is the plain sum over the contracted features (first part below: the product's operand indices at a
  row, a column and a contraction index are (row, k) and (k, column)), a one-row or one-column operand broadcast over
  the block is read at its one row or column, and a column cut out of the packed norms is that column (second part).
  Put together (third part), a point's stored value at (p, q) is the dense stage of DenseLayer, written over the
  point's own blocks.
-/
import proofs.«181485_j46694884442368_2_alg».proof.Proof.Gen.KernelIdeal.Skeleton
import proofs.«181485_j46694884442368_2_alg».proof.Proof.DenseLayer
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Cert.GraphConv
open Idealize.ShloMosaic Idealize.ShloMosaic.ValueIdx

/-! ## The two block products as sums -/

theorem matmul128_lhs0 (i : S5000x128.Idx) (z : dot_S5000x128_S128x128_S5000x128_1_0_0_1_n_n.contr.Idx) : (dot_S5000x128_S128x128_S5000x128_1_0_0_1_n_n.lhsIdx i z 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem matmul128_lhs1 (i : S5000x128.Idx) (z : dot_S5000x128_S128x128_S5000x128_1_0_0_1_n_n.contr.Idx) : (dot_S5000x128_S128x128_S5000x128_1_0_0_1_n_n.lhsIdx i z 1).val = (z ⟨0, by decide⟩).val :=
  dot_S5000x128_S128x128_S5000x128_1_0_0_1_n_n.lhsIdx_val_of_single rfl i z
theorem matmul128_rhs0 (i : S5000x128.Idx) (z : dot_S5000x128_S128x128_S5000x128_1_0_0_1_n_n.contr.Idx) : (dot_S5000x128_S128x128_S5000x128_1_0_0_1_n_n.rhsIdx i z 0).val = (z ⟨0, by decide⟩).val :=
  dot_S5000x128_S128x128_S5000x128_1_0_0_1_n_n.rhsIdx_val_of_single rfl i z
theorem matmul128_rhs1 (i : S5000x128.Idx) (z : dot_S5000x128_S128x128_S5000x128_1_0_0_1_n_n.contr.Idx) : (dot_S5000x128_S128x128_S5000x128_1_0_0_1_n_n.rhsIdx i z 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times the layer's weight into a zero accumulator, at row `p` and column `q`: the sum over the
    128 contracted features of the row's entries times the column's. -/
theorem matmul128_apply (A : FVec Ideal S5000x128 .bf16) (B : FVec Ideal S128x128 .bf16) (p : Fin 5000) (q : Fin 128) :
    matmul (F := Ideal) dot_S5000x128_S128x128_S5000x128_1_0_0_1_n_n none A B (constant S5000x128 .f32 0x00000000#32) (ix2 p q)
      = ∑ k : Fin 128, A (ix2 p k) * B (ix2 k q) := by
  show FloatOps.matmul dot_S5000x128_S128x128_S5000x128_1_0_0_1_n_n none A B (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact matmul128_lhs0 _ _
    | ⟨1, _⟩ => exact (matmul128_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (matmul128_rhs0 _ _).trans hk
    | ⟨1, _⟩ => exact matmul128_rhs1 _ _)
  rw [el, er]

theorem matmul1_lhs0 (i : S5000x128.Idx) (z : dot_S5000x1_S1x128_S5000x128_1_0_0_1_n_n.contr.Idx) : (dot_S5000x1_S1x128_S5000x128_1_0_0_1_n_n.lhsIdx i z 0).val = (i 0).val := by
  unfold DotDims.lhsIdx
  rw [dif_neg (show ¬(0 : Fin S5000x1.rank) ∈ dot_S5000x1_S1x128_S5000x128_1_0_0_1_n_n.lhsBatch by decide), dif_pos (show (0 : Fin S5000x1.rank) ∈ dot_S5000x1_S1x128_S5000x128_1_0_0_1_n_n.lhsNonContracting by decide)]
  rfl
theorem matmul1_lhs1 (i : S5000x128.Idx) (z : dot_S5000x1_S1x128_S5000x128_1_0_0_1_n_n.contr.Idx) : (dot_S5000x1_S1x128_S5000x128_1_0_0_1_n_n.lhsIdx i z 1).val = (z ⟨0, by decide⟩).val :=
  dot_S5000x1_S1x128_S5000x128_1_0_0_1_n_n.lhsIdx_val_of_single rfl i z
theorem matmul1_rhs0 (i : S5000x128.Idx) (z : dot_S5000x1_S1x128_S5000x128_1_0_0_1_n_n.contr.Idx) : (dot_S5000x1_S1x128_S5000x128_1_0_0_1_n_n.rhsIdx i z 0).val = (z ⟨0, by decide⟩).val :=
  dot_S5000x1_S1x128_S5000x128_1_0_0_1_n_n.rhsIdx_val_of_single rfl i z
theorem matmul1_rhs1 (i : S5000x128.Idx) (z : dot_S5000x1_S1x128_S5000x128_1_0_0_1_n_n.contr.Idx) : (dot_S5000x1_S1x128_S5000x128_1_0_0_1_n_n.rhsIdx i z 1).val = (i 1).val := by
  unfold DotDims.rhsIdx
  rw [dif_neg (show ¬(1 : Fin S1x128.rank) ∈ dot_S5000x1_S1x128_S5000x128_1_0_0_1_n_n.rhsBatch by decide), dif_pos (show (1 : Fin S1x128.rank) ∈ dot_S5000x1_S1x128_S5000x128_1_0_0_1_n_n.rhsNonContracting by decide)]
  rfl

/-- A block of 5000 rows times the layer's weight into a zero accumulator, at row `p` and column `q`: the sum over the
    1 contracted features of the row's entries times the column's. -/
theorem matmul1_apply (A : FVec Ideal S5000x1 .bf16) (B : FVec Ideal S1x128 .bf16) (p : Fin 5000) (q : Fin 128) :
    matmul (F := Ideal) dot_S5000x1_S1x128_S5000x128_1_0_0_1_n_n none A B (constant S5000x128 .f32 0x00000000#32) (ix2 p q)
      = ∑ k : Fin 1, A (ix2 p k) * B (ix2 k q) := by
  show FloatOps.matmul dot_S5000x1_S1x128_S5000x128_1_0_0_1_n_n none A B (constant S5000x128 .f32 0x00000000#32) (ix2 p q) = _
  rw [Ideal.matmul_constant_zero_apply, ← Equiv.sum_comp (contrEquiv1 dot_S5000x1_S1x128_S5000x128_1_0_0_1_n_n 1 rfl rfl).symm]
  refine Finset.sum_congr rfl fun k _ => ?_
  have hk := contrEquiv1_symm_val dot_S5000x1_S1x128_S5000x128_1_0_0_1_n_n 1 rfl rfl k
  have el : dot_S5000x1_S1x128_S5000x128_1_0_0_1_n_n.lhsIdx (ix2 p q) ((contrEquiv1 dot_S5000x1_S1x128_S5000x128_1_0_0_1_n_n 1 rfl rfl).symm k) = ix2 p k := funext fun a => Fin.ext (by
    match a with
    | ⟨0, _⟩ => exact matmul1_lhs0 _ _
    | ⟨1, _⟩ => exact (matmul1_lhs1 _ _).trans hk)
  have er : dot_S5000x1_S1x128_S5000x128_1_0_0_1_n_n.rhsIdx (ix2 p q) ((contrEquiv1 dot_S5000x1_S1x128_S5000x128_1_0_0_1_n_n 1 rfl rfl).symm k) = ix2 k q := funext fun a => Fin.ext (by
    match a with
    | ⟨0, _⟩ => exact (matmul1_rhs0 _ _).trans hk
    | ⟨1, _⟩ => exact matmul1_rhs1 _ _)
  rw [el, er]

/-! ## The bias row and the two norm columns, read through their layout operations

(The body's casts of a shape to itself are the identity; they are removed first, so these lemmas speak of the bare operand.) -/

/-- Every block here is loaded and stored through the rectangle at offsets (0, 0). -/
theorem zeroOffsets : (![0, 0] : Fin 2 → Nat) = fun _ => 0 := funext fun a => by fin_cases a <;> rfl

/-- The bias, loaded as one row and broadcast down the block's 5000 rows, at row `p` and column `q` is the bias at `q`. -/
theorem biasRow_apply (xb : FVec Ideal S1x128 .f32) (p : Fin 5000) (q : Fin 128) :
    broadcastTo S5000x128 xb broadcasts_S1x128_S5000x128 (ix2 p q) = xb (ix2 (0 : Fin 1) q) := by
  exact broadcastTo_apply xb broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- Column 0 of the packed norms (the in-degree norm), one entry per row of the block. -/
theorem normCol0_apply (xn : FVec Ideal S5000x2 .f32) (p : Fin 5000) (k : Fin 1) :
    extractStridedSlice S5000x1 ![0, 0] xn slices_S5000x2_o0_0_S5000x1 (ix2 p k) = xn (ix2 p (0 : Fin 2)) :=
  extractStridedSlice_apply _ xn slices_S5000x2_o0_0_S5000x1 (ix2 p k) (ix2 p (0 : Fin 2)) (fun a => match a with
    | ⟨0, _⟩ => by show p.val = 0 + p.val; omega
    | ⟨1, _⟩ => by show 0 = 0 + k.val; have := k.isLt; omega)

/-- Column 1 of the packed norms (the out-degree norm), one entry per row of the block. -/
theorem normCol1_apply (xn : FVec Ideal S5000x2 .f32) (p : Fin 5000) (k : Fin 1) :
    extractStridedSlice S5000x1 ![0, 1] xn slices_S5000x2_o0_1_S5000x1 (ix2 p k) = xn (ix2 p (1 : Fin 2)) :=
  extractStridedSlice_apply _ xn slices_S5000x2_o0_1_S5000x1 (ix2 p k) (ix2 p (1 : Fin 2)) (fun a => match a with
    | ⟨0, _⟩ => by show p.val = 0 + p.val; omega
    | ⟨1, _⟩ => by show 1 = 1 + k.val; have := k.isLt; omega)

/-- A one-column vector broadcast across the block's 128 columns, at row `p`, is its entry at `p`. -/
theorem colBcast_apply (v : FVec Ideal S5000x1 .f32) (p : Fin 5000) (q : Fin 128) :
    broadcastTo S5000x128 v broadcasts_S5000x1_S5000x128 (ix2 p q) = v (ix2 p (0 : Fin 1)) :=
  broadcastTo_apply v broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-! ## The payloads at a row and a column -/

/-- What a point of the second layer stores at row `p`, column `q` of its block: the dense stage of the block's rows, scaled by the out-degree norm. -/
theorem pay1_apply (xn : Vec Ideal S5000x2 .f32) (xa : Vec Ideal S5000x128 .f32) (xw : Vec Ideal S128x128 .f32) (xb : Vec Ideal S1x128 .f32) (p : Fin 5000) (q : Fin 128) :
    (k1_pay1 (F := Ideal) xn xa xw xb) (ix2 p q)
      = max ((∑ k : Fin 128, (xa (ix2 p k) * xn (ix2 p (0 : Fin 2))) * xw (ix2 k q)) + xb (ix2 (0 : Fin 1) q)) zeroWord * xn (ix2 p (1 : Fin 2)) := by
  unfold k1_pay1
  simp only [shapeCast_self, truncf_apply, mulf_apply, maximumf_apply, addf_apply, broadcast_apply]
  rw [matmul128_apply, biasRow_apply, colBcast_apply, normCol1_apply]
  simp only [truncf_apply, mulf_apply, colBcast_apply, normCol0_apply]
  rfl

/-- The third layer's point: the dense stage alone. -/
theorem pay2_apply (xn : Vec Ideal S5000x2 .f32) (xa : Vec Ideal S5000x128 .f32) (xw : Vec Ideal S128x128 .f32) (xb : Vec Ideal S1x128 .f32) (p : Fin 5000) (q : Fin 128) :
    (k2_pay1 (F := Ideal) xn xa xw xb) (ix2 p q)
      = max ((∑ k : Fin 128, (xa (ix2 p k) * xn (ix2 p (0 : Fin 2))) * xw (ix2 k q)) + xb (ix2 (0 : Fin 1) q)) zeroWord := by
  unfold k2_pay1
  simp only [shapeCast_self, truncf_apply, mulf_apply, maximumf_apply, addf_apply, broadcast_apply]
  rw [matmul128_apply, biasRow_apply]
  simp only [truncf_apply, mulf_apply, colBcast_apply, normCol0_apply]
  rfl

/-- The first layer's point: one input feature, so the contraction has one term. -/
theorem pay0_apply (xn : Vec Ideal S5000x2 .f32) (xa : Vec Ideal S5000x1 .f32) (xw : Vec Ideal S1x128 .f32) (xb : Vec Ideal S1x128 .f32) (p : Fin 5000) (q : Fin 128) :
    (k0_pay1 (F := Ideal) xn xa xw xb) (ix2 p q)
      = max ((∑ k : Fin 1, (xa (ix2 p k) * xn (ix2 p (0 : Fin 2))) * xw (ix2 k q)) + xb (ix2 (0 : Fin 1) q)) zeroWord * xn (ix2 p (1 : Fin 2)) := by
  unfold k0_pay1
  simp only [shapeCast_self, truncf_apply, mulf_apply, maximumf_apply, addf_apply, broadcast_apply]
  rw [matmul1_apply, biasRow_apply, colBcast_apply, normCol1_apply]
  simp only [truncf_apply, mulf_apply, normCol0_apply]
  rfl

end Cert.KernelIdeal.Hand

end
-- ==== Proof.PackedLayer.lean ====
/-
  The dense stage as the tiled regions meet it: the two degree norms arrive packed as the two columns of one array
  (column 0 the in-degree norm, column 1 the out-degree norm) and the bias as an array of one row. Reading those two
  arrays by their columns and their row gives back the dense stage of DenseLayer.
-/
import proofs.«181485_j46694884442368_2_alg».proof.Proof.DenseLayer

noncomputable section

namespace Cert.GraphConv

open Idealize.ShloMosaic Idealize.ShloMosaic.ValueIdx

/-- The first two layers' output array from the packed norms and the one-row bias. -/
def packedScaled {K : Nat} (agg : (⟨2, ![100000, K]⟩ : Shape).Idx → EReal) (norms : (⟨2, ![100000, 2]⟩ : Shape).Idx → EReal)
    (W : (⟨2, ![K, 128]⟩ : Shape).Idx → EReal) (brow : (⟨2, ![1, 128]⟩ : Shape).Idx → EReal) : (⟨2, ![100000, 128]⟩ : Shape).Idx → EReal :=
  denseReluScaled agg (fun r => norms (ix2 r (0 : Fin 2))) (fun r => norms (ix2 r (1 : Fin 2))) W (fun j => brow (ix2 (0 : Fin 1) j))

/-- The last layer's output array from the packed norms and the one-row bias. -/
def packedPlain {K : Nat} (agg : (⟨2, ![100000, K]⟩ : Shape).Idx → EReal) (norms : (⟨2, ![100000, 2]⟩ : Shape).Idx → EReal)
    (W : (⟨2, ![K, 128]⟩ : Shape).Idx → EReal) (brow : (⟨2, ![1, 128]⟩ : Shape).Idx → EReal) : (⟨2, ![100000, 128]⟩ : Shape).Idx → EReal :=
  denseRelu agg (fun r => norms (ix2 r (0 : Fin 2))) W (fun j => brow (ix2 (0 : Fin 1) j))

/-- Packed arrays whose columns are `nd`, `ns` and whose row is `b` give the dense stage at `nd`, `ns`, `b`. -/
theorem packedScaled_eq {K : Nat} (agg : (⟨2, ![100000, K]⟩ : Shape).Idx → EReal) (norms : (⟨2, ![100000, 2]⟩ : Shape).Idx → EReal)
    (W : (⟨2, ![K, 128]⟩ : Shape).Idx → EReal) (brow : (⟨2, ![1, 128]⟩ : Shape).Idx → EReal) (nd ns : Fin 100000 → EReal) (b : Fin 128 → EReal)
    (h0 : ∀ r, norms (ix2 r (0 : Fin 2)) = nd r) (h1 : ∀ r, norms (ix2 r (1 : Fin 2)) = ns r) (hb : ∀ j, brow (ix2 (0 : Fin 1) j) = b j) :
    packedScaled agg norms W brow = denseReluScaled agg nd ns W b := by
  unfold packedScaled
  rw [funext h0, funext h1, funext hb]

theorem packedPlain_eq {K : Nat} (agg : (⟨2, ![100000, K]⟩ : Shape).Idx → EReal) (norms : (⟨2, ![100000, 2]⟩ : Shape).Idx → EReal)
    (W : (⟨2, ![K, 128]⟩ : Shape).Idx → EReal) (brow : (⟨2, ![1, 128]⟩ : Shape).Idx → EReal) (nd : Fin 100000 → EReal) (b : Fin 128 → EReal)
    (h0 : ∀ r, norms (ix2 r (0 : Fin 2)) = nd r) (hb : ∀ j, brow (ix2 (0 : Fin 1) j) = b j) :
    packedPlain agg norms W brow = denseRelu agg nd W b := by
  unfold packedPlain
  rw [funext h0, funext hb]

end Cert.GraphConv

end
-- ==== Proof.Region0.lean ====
/-
  The FIRST layer's tiled region (one input feature per node): its output array, after all its grid points, as one function of the arrays it was entered with.
  The region runs over 20 grid points; point `t` loads rows 5000·t … 5000·t + 4999 of the aggregated messages and of
  the packed norms, the whole weight and the one-row bias, and writes back rows 5000·t … 5000·t + 4999 of the output.
  So (first part) each loaded block, read at a row `p` of the block, is the array read at row 5000·t + p; (second part)
  what point `t` writes back is block `t` of ONE whole-array function, the dense stage in its packed form, because the
  stored value at (p, q) uses only row 5000·t + p of the inputs; (third part) the 20 blocks cover all 100000 rows —
  row `r` lies in the block of point r / 5000 — so after the region the output array IS that function of the arrays
  the region was entered with. Stated for any entry contents `V`.
-/
import proofs.«181485_j46694884442368_2_alg».proof.Proof.Gen.KernelIdeal.Frame
import proofs.«181485_j46694884442368_2_alg».proof.Proof.Payloads
import proofs.«181485_j46694884442368_2_alg».proof.Proof.PackedLayer
import Idealize.ShloMosaic.Lib.Pipeline.Value

set_option maxRecDepth 16384

noncomputable section

open scoped BigOperators

namespace Cert.KernelIdeal.Hand

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Which block each window shows at a point -/

/-- The printed index maps over the 20 points: the three row-tiled windows (messages, norms, output) are at block row
    `t`, block column 0; the weight and the bias are at block (0, 0) at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0)

theorem lt20_0 (t : Fin cfg0.N) : t.val < 20 := t.isLt.trans_eq N_0

/-- The messages' block at point `t`, row `p`: the array's row 5000·t + p. -/
theorem aggBlock0 (c : Dev nD) (t : Fin cfg0.N) (p : Fin 5000) (k : Fin 1) (h : t.val * 5000 + p.val < 100000) :
    (iblk0 V c 0 t : Vec Ideal S5000x1 .f32) (ix2 p k) = (V c main_v30 : S100000x1.Idx → EReal) (ix2 (⟨t.val * 5000 + p.val, h⟩ : Fin 100000) k) := by
  obtain ⟨e0, e1, -⟩ := idx_facts0 t
  unfold iblk0
  rw [View.read_apply]
  show V c main_v30 _ = V c main_v30 _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 1 + 1 * k.val = k.val; rw [e1]; omega

/-- The packed norms' block at point `t`, row `p`: the array's row 5000·t + p, either column. -/
theorem normBlock0 (c : Dev nD) (t : Fin cfg0.N) (p : Fin 5000) (d : Fin 2) (h : t.val * 5000 + p.val < 100000) :
    (iblk0 V c 1 t : Vec Ideal S5000x2 .f32) (ix2 p d) = (V c main_v15 : S100000x2.Idx → EReal) (ix2 (⟨t.val * 5000 + p.val, h⟩ : Fin 100000) d) := by
  obtain ⟨-, -, e2, e3, -⟩ := idx_facts0 t
  unfold iblk0
  rw [View.read_apply]
  show V c main_v15 _ = V c main_v15 _
  refine congrArg _ (funext fun a => Fin.ext ?_)
  match a with
  | ⟨0, _⟩ => show win0_1.index t (0 : Fin 2) * 5000 + 1 * p.val = t.val * 5000 + p.val; rw [e2]; omega
  | ⟨1, _⟩ => show win0_1.index t (1 : Fin 2) * 2 + 1 * d.val = d.val; rw [e3]; omega

/-- The weight's block is the whole weight at every point. -/
theorem weightBlock0 (c : Dev nD) (t : Fin cfg0.N) (k : Fin 1) (q : Fin 128) :
    (iblk0 V c 2 t : Vec Ideal S1x128 .f32) (ix2 k q) = (V c main_arg3 : S1x128.Idx → EReal) (ix2 k q) := by
  obtain ⟨-, -, -, -, e4, e5, -⟩ := idx_facts0 t
  unfold iblk0
  rw [View.read_apply]
  show V c main_arg3 _ = V c main_arg3 _
  refine congrArg _ (funext fun a => Fin.ext ?_)
  match a with
  | ⟨0, _⟩ => show win0_2.index t (0 : Fin 2) * 1 + 1 * k.val = k.val; rw [e4]; omega
  | ⟨1, _⟩ => show win0_2.index t (1 : Fin 2) * 128 + 1 * q.val = q.val; rw [e5]; omega

/-- The bias row's block is the whole row at every point. -/
theorem biasBlock0 (c : Dev nD) (t : Fin cfg0.N) (z : Fin 1) (q : Fin 128) :
    (iblk0 V c 3 t : Vec Ideal S1x128 .f32) (ix2 z q) = (V c main_v31 : S1x128.Idx → EReal) (ix2 z q) := by
  obtain ⟨-, -, -, -, -, -, e6, e7, -⟩ := idx_facts0 t
  unfold iblk0
  rw [View.read_apply]
  show V c main_v31 _ = V c main_v31 _
  refine congrArg _ (funext fun a => Fin.ext ?_)
  match a with
  | ⟨0, _⟩ => show win0_3.index t (0 : Fin 2) * 1 + 1 * z.val = z.val; rw [e6]; omega
  | ⟨1, _⟩ => show win0_3.index t (1 : Fin 2) * 128 + 1 * q.val = q.val; rw [e7]; omega

/-! ## What a point writes back -/

/-- Point `t` writes back block `t` of the dense stage of the arrays the region was entered with. -/
theorem flushed0_eq (c : Dev nD) (t : Fin cfg0.N) :
    (dat0 V c).flushed 4 t = ((cfg0.win 4).blk t).view.read (Elt Ideal)
      (packedScaled (K := 1) (V c main_v30) (V c main_v15) (V c main_arg3) (V c main_v31)) := by
  have ht := lt20_0 t
  obtain ⟨-, -, -, -, -, -, -, -, e8, e9⟩ := idx_facts0 t
  show (cfg0.win 4).cut (grid0.coords t) ((dat0 V c).after 4 t) = _
  rw [after0_4]
  unfold out0_4
  rw [View.canon_unit_zero zeroOffsets]
  simp only [View.ld_unit_zero (S := S5000x2) zeroOffsets, View.ld_unit_zero (S := S5000x1) zeroOffsets,
    View.ld_unit_zero (S := S1x128) zeroOffsets, View.ld_unit_zero (S := S1x128) zeroOffsets]
  funext j
  obtain ⟨p, q, rfl⟩ : ∃ (p : Fin 5000) (q : Fin 128), j = ix2 p q := ⟨j 0, j 1, eq_ix2 j⟩
  have hr : t.val * 5000 + p.val < 100000 := by have := p.isLt; omega
  have hemb : ((cfg0.win 4).blk t).view.emb (ix2 p q) = ix2 (⟨t.val * 5000 + p.val, hr⟩ : Fin 100000) q :=
    funext fun a => Fin.ext (by
      match a with
      | ⟨0, _⟩ => show win0_4.index t (0 : Fin 2) * 5000 + 1 * p.val = t.val * 5000 + p.val; rw [e8]; omega
      | ⟨1, _⟩ => show win0_4.index t (1 : Fin 2) * 128 + 1 * q.val = q.val; rw [e9]; omega)
  show k0_pay1 (iblk0 V c 1 t) (iblk0 V c 0 t) (iblk0 V c 2 t) (iblk0 V c 3 t) (ix2 p q)
    = packedScaled (K := 1) (V c main_v30) (V c main_v15) (V c main_arg3) (V c main_v31) (((cfg0.win 4).blk t).view.emb (ix2 p q))
  rw [hemb]
  refine (pay0_apply (iblk0 V c 1 t) (iblk0 V c 0 t) (iblk0 V c 2 t) (iblk0 V c 3 t) p q).trans ?_
  simp only [aggBlock0 V c t p _ hr, normBlock0 V c t p _ hr, weightBlock0 V c t, biasBlock0 V c t]
  rfl

/-! ## The cover, and the array after the region -/

/-- An index of the output array lies in point `t`'s block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v32).slice (win0_4.rect t)).set ↔ _
  rw [View.set_slice_whole, Rect.mem_set_unit]
  exact Iff.rfl

/-- After the region the output array is the dense stage of the arrays the region was entered with. -/
theorem region0_array (c : Dev nD) :
    (dat0 V c).arrAt 4 cfg0.N = packedScaled (K := 1) (V c main_v30) (V c main_v15) (V c main_arg3) (V c main_v31) :=
  (dat0 V c).arrAt_eq_of_cover 4 _ (fun t _ => flushed0_eq V c t) fun i => by
    have hi0 : (i 0).val < 100000 := (i 0).isLt
    have hi1 : (i 1).val < 128 := (i 1).isLt
    have hN : cfg0.N = 20 := N_0
    have hlt : (i 0).val / 5000 < cfg0.N := by rw [hN]; omega
    obtain ⟨-, -, -, -, -, -, -, -, e8, e9⟩ := idx_facts0 ⟨(i 0).val / 5000, hlt⟩
    refine ⟨⟨(i 0).val / 5000, hlt⟩, flush0_4 _, ?_⟩
    rw [mem_blk0]
    intro a
    match a with
    | ⟨0, _⟩ =>
      show win0_4.index ⟨(i 0).val / 5000, hlt⟩ (0 : Fin 2) * 5000 ≤ (i 0).val ∧ (i 0).val < win0_4.index ⟨(i 0).val / 5000, hlt⟩ (0 : Fin 2) * 5000 + 5000
      rw [e8]; show (i 0).val / 5000 * 5000 ≤ (i 0).val ∧ (i 0).val < (i 0).val / 5000 * 5000 + 5000; omega
    | ⟨1, _⟩ =>
      show win0_4.index ⟨(i 0).val / 5000, hlt⟩ (1 : Fin 2) * 128 ≤ (i 1).val ∧ (i 1).val < win0_4.index ⟨(i 0).val / 5000, hlt⟩ (1 : Fin 2) * 128 + 128
      rw [e9]; omega

end Cert.KernelIdeal.Hand

end
-- ==== Proof.Region1.lean ====
/-
  The SECOND layer's tiled region: its output array, after all its grid points, as one function of the arrays it was entered with.
  The region runs over 20 grid points; point `t` loads rows 5000·t … 5000·t + 4999 of the aggregated messages and of
  the packed norms, the whole weight and the one-row bias, and writes back rows 5000·t … 5000·t + 4999 of the output.
  So (first part) each loaded block, read at a row `p` of the block, is the array read at row 5000·t + p; (second part)
  what point `t` writes back is block `t` of ONE whole-array function, the dense stage in its packed form, because the
  stored value at (p, q) uses only row 5000·t + p of the inputs; (third part) the 20 blocks cover all 100000 rows —
  row `r` lies in the block of point r / 5000 — so after the region the output array IS that function of the arrays
  the region was entered with. Stated for any entry contents `V`.
-/
import proofs.«181485_j46694884442368_2_alg».proof.Proof.Gen.KernelIdeal.Frame
import proofs.«181485_j46694884442368_2_alg».proof.Proof.Payloads
import proofs.«181485_j46694884442368_2_alg».proof.Proof.PackedLayer
import Idealize.ShloMosaic.Lib.Pipeline.Value

set_option maxRecDepth 16384

noncomputable section

open scoped BigOperators

namespace Cert.KernelIdeal.Hand

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Which block each window shows at a point -/

/-- The printed index maps over the 20 points: the three row-tiled windows (messages, norms, output) are at block row
    `t`, block column 0; the weight and the bias are at block (0, 0) at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0)

theorem lt20_1 (t : Fin cfg1.N) : t.val < 20 := t.isLt.trans_eq N_1

/-- The messages' block at point `t`, row `p`: the array's row 5000·t + p. -/
theorem aggBlock1 (c : Dev nD) (t : Fin cfg1.N) (p : Fin 5000) (k : Fin 128) (h : t.val * 5000 + p.val < 100000) :
    (iblk1 V c 0 t : Vec Ideal S5000x128 .f32) (ix2 p k) = (V c main_v43 : S100000x128.Idx → EReal) (ix2 (⟨t.val * 5000 + p.val, h⟩ : Fin 100000) k) := by
  obtain ⟨e0, e1, -⟩ := idx_facts1 t
  unfold iblk1
  rw [View.read_apply]
  show V c main_v43 _ = V c main_v43 _
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The packed norms' block at point `t`, row `p`: the array's row 5000·t + p, either column. -/
theorem normBlock1 (c : Dev nD) (t : Fin cfg1.N) (p : Fin 5000) (d : Fin 2) (h : t.val * 5000 + p.val < 100000) :
    (iblk1 V c 1 t : Vec Ideal S5000x2 .f32) (ix2 p d) = (V c main_v15 : S100000x2.Idx → EReal) (ix2 (⟨t.val * 5000 + p.val, h⟩ : Fin 100000) d) := by
  obtain ⟨-, -, e2, e3, -⟩ := idx_facts1 t
  unfold iblk1
  rw [View.read_apply]
  show V c main_v15 _ = V c main_v15 _
  refine congrArg _ (funext fun a => Fin.ext ?_)
  match a with
  | ⟨0, _⟩ => show win1_1.index t (0 : Fin 2) * 5000 + 1 * p.val = t.val * 5000 + p.val; rw [e2]; omega
  | ⟨1, _⟩ => show win1_1.index t (1 : Fin 2) * 2 + 1 * d.val = d.val; rw [e3]; omega

/-- The weight's block is the whole weight at every point. -/
theorem weightBlock1 (c : Dev nD) (t : Fin cfg1.N) (k : Fin 128) (q : Fin 128) :
    (iblk1 V c 2 t : Vec Ideal S128x128 .f32) (ix2 k q) = (V c main_arg5 : S128x128.Idx → EReal) (ix2 k q) := by
  obtain ⟨-, -, -, -, e4, e5, -⟩ := idx_facts1 t
  unfold iblk1
  rw [View.read_apply]
  show V c main_arg5 _ = V c main_arg5 _
  refine congrArg _ (funext fun a => Fin.ext ?_)
  match a with
  | ⟨0, _⟩ => show win1_2.index t (0 : Fin 2) * 128 + 1 * k.val = k.val; rw [e4]; omega
  | ⟨1, _⟩ => show win1_2.index t (1 : Fin 2) * 128 + 1 * q.val = q.val; rw [e5]; omega

/-- The bias row's block is the whole row at every point. -/
theorem biasBlock1 (c : Dev nD) (t : Fin cfg1.N) (z : Fin 1) (q : Fin 128) :
    (iblk1 V c 3 t : Vec Ideal S1x128 .f32) (ix2 z q) = (V c main_v44 : S1x128.Idx → EReal) (ix2 z q) := by
  obtain ⟨-, -, -, -, -, -, e6, e7, -⟩ := idx_facts1 t
  unfold iblk1
  rw [View.read_apply]
  show V c main_v44 _ = V c main_v44 _
  refine congrArg _ (funext fun a => Fin.ext ?_)
  match a with
  | ⟨0, _⟩ => show win1_3.index t (0 : Fin 2) * 1 + 1 * z.val = z.val; rw [e6]; omega
  | ⟨1, _⟩ => show win1_3.index t (1 : Fin 2) * 128 + 1 * q.val = q.val; rw [e7]; omega

/-! ## What a point writes back -/

/-- Point `t` writes back block `t` of the dense stage of the arrays the region was entered with. -/
theorem flushed1_eq (c : Dev nD) (t : Fin cfg1.N) :
    (dat1 V c).flushed 4 t = ((cfg1.win 4).blk t).view.read (Elt Ideal)
      (packedScaled (K := 128) (V c main_v43) (V c main_v15) (V c main_arg5) (V c main_v44)) := by
  have ht := lt20_1 t
  obtain ⟨-, -, -, -, -, -, -, -, e8, e9⟩ := idx_facts1 t
  show (cfg1.win 4).cut (grid1.coords t) ((dat1 V c).after 4 t) = _
  rw [after1_4]
  unfold out1_4
  rw [View.canon_unit_zero zeroOffsets]
  simp only [View.ld_unit_zero (S := S5000x2) zeroOffsets, View.ld_unit_zero (S := S5000x128) zeroOffsets,
    View.ld_unit_zero (S := S128x128) zeroOffsets, View.ld_unit_zero (S := S1x128) zeroOffsets]
  funext j
  obtain ⟨p, q, rfl⟩ : ∃ (p : Fin 5000) (q : Fin 128), j = ix2 p q := ⟨j 0, j 1, eq_ix2 j⟩
  have hr : t.val * 5000 + p.val < 100000 := by have := p.isLt; omega
  have hemb : ((cfg1.win 4).blk t).view.emb (ix2 p q) = ix2 (⟨t.val * 5000 + p.val, hr⟩ : Fin 100000) q :=
    funext fun a => Fin.ext (by
      match a with
      | ⟨0, _⟩ => show win1_4.index t (0 : Fin 2) * 5000 + 1 * p.val = t.val * 5000 + p.val; rw [e8]; omega
      | ⟨1, _⟩ => show win1_4.index t (1 : Fin 2) * 128 + 1 * q.val = q.val; rw [e9]; omega)
  show k1_pay1 (iblk1 V c 1 t) (iblk1 V c 0 t) (iblk1 V c 2 t) (iblk1 V c 3 t) (ix2 p q)
    = packedScaled (K := 128) (V c main_v43) (V c main_v15) (V c main_arg5) (V c main_v44) (((cfg1.win 4).blk t).view.emb (ix2 p q))
  rw [hemb]
  refine (pay1_apply (iblk1 V c 1 t) (iblk1 V c 0 t) (iblk1 V c 2 t) (iblk1 V c 3 t) p q).trans ?_
  simp only [aggBlock1 V c t p _ hr, normBlock1 V c t p _ hr, weightBlock1 V c t, biasBlock1 V c t]
  rfl

/-! ## The cover, and the array after the region -/

/-- An index of the output array lies in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v45).slice (win1_4.rect t)).set ↔ _
  rw [View.set_slice_whole, Rect.mem_set_unit]
  exact Iff.rfl

/-- After the region the output array is the dense stage of the arrays the region was entered with. -/
theorem region1_array (c : Dev nD) :
    (dat1 V c).arrAt 4 cfg1.N = packedScaled (K := 128) (V c main_v43) (V c main_v15) (V c main_arg5) (V c main_v44) :=
  (dat1 V c).arrAt_eq_of_cover 4 _ (fun t _ => flushed1_eq V c t) fun i => by
    have hi0 : (i 0).val < 100000 := (i 0).isLt
    have hi1 : (i 1).val < 128 := (i 1).isLt
    have hN : cfg1.N = 20 := N_1
    have hlt : (i 0).val / 5000 < cfg1.N := by rw [hN]; omega
    obtain ⟨-, -, -, -, -, -, -, -, e8, e9⟩ := idx_facts1 ⟨(i 0).val / 5000, hlt⟩
    refine ⟨⟨(i 0).val / 5000, hlt⟩, flush1_4 _, ?_⟩
    rw [mem_blk1]
    intro a
    match a with
    | ⟨0, _⟩ =>
      show win1_4.index ⟨(i 0).val / 5000, hlt⟩ (0 : Fin 2) * 5000 ≤ (i 0).val ∧ (i 0).val < win1_4.index ⟨(i 0).val / 5000, hlt⟩ (0 : Fin 2) * 5000 + 5000
      rw [e8]; show (i 0).val / 5000 * 5000 ≤ (i 0).val ∧ (i 0).val < (i 0).val / 5000 * 5000 + 5000; omega
    | ⟨1, _⟩ =>
      show win1_4.index ⟨(i 0).val / 5000, hlt⟩ (1 : Fin 2) * 128 ≤ (i 1).val ∧ (i 1).val < win1_4.index ⟨(i 0).val / 5000, hlt⟩ (1 : Fin 2) * 128 + 128
      rw [e9]; omega

end Cert.KernelIdeal.Hand

end
-- ==== Proof.Region2.lean ====
/-
  The THIRD layer's tiled region (no scaling after the comparison with zero): its output array, after all its grid points, as one function of the arrays it was entered with.
  The region runs over 20 grid points; point `t` loads rows 5000·t … 5000·t + 4999 of the aggregated messages and of
  the packed norms, the whole weight and the one-row bias, and writes back rows 5000·t … 5000·t + 4999 of the output.
  So (first part) each loaded block, read at a row `p` of the block, is the array read at row 5000·t + p; (second part)
  what point `t` writes back is block `t` of ONE whole-array function, the dense stage in its packed form, because the
  stored value at (p, q) uses only row 5000·t + p of the inputs; (third part) the 20 blocks cover all 100000 rows —
  row `r` lies in the block of point r / 5000 — so after the region the output array IS that function of the arrays
  the region was entered with. Stated for any entry contents `V`.
-/
import proofs.«181485_j46694884442368_2_alg».proof.Proof.Gen.KernelIdeal.Frame
import proofs.«181485_j46694884442368_2_alg».proof.Proof.Payloads
import proofs.«181485_j46694884442368_2_alg».proof.Proof.PackedLayer
import Idealize.ShloMosaic.Lib.Pipeline.Value

set_option maxRecDepth 16384

noncomputable section

open scoped BigOperators

namespace Cert.KernelIdeal.Hand

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Which block each window shows at a point -/

/-- The printed index maps over the 20 points: the three row-tiled windows (messages, norms, output) are at block row
    `t`, block column 0; the weight and the bias are at block (0, 0) at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0)

theorem lt20_2 (t : Fin cfg2.N) : t.val < 20 := t.isLt.trans_eq N_2

/-- The messages' block at point `t`, row `p`: the array's row 5000·t + p. -/
theorem aggBlock2 (c : Dev nD) (t : Fin cfg2.N) (p : Fin 5000) (k : Fin 128) (h : t.val * 5000 + p.val < 100000) :
    (iblk2 V c 0 t : Vec Ideal S5000x128 .f32) (ix2 p k) = (V c main_v56 : S100000x128.Idx → EReal) (ix2 (⟨t.val * 5000 + p.val, h⟩ : Fin 100000) k) := by
  obtain ⟨e0, e1, -⟩ := idx_facts2 t
  unfold iblk2
  rw [View.read_apply]
  show V c main_v56 _ = V c main_v56 _
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The packed norms' block at point `t`, row `p`: the array's row 5000·t + p, either column. -/
theorem normBlock2 (c : Dev nD) (t : Fin cfg2.N) (p : Fin 5000) (d : Fin 2) (h : t.val * 5000 + p.val < 100000) :
    (iblk2 V c 1 t : Vec Ideal S5000x2 .f32) (ix2 p d) = (V c main_v15 : S100000x2.Idx → EReal) (ix2 (⟨t.val * 5000 + p.val, h⟩ : Fin 100000) d) := by
  obtain ⟨-, -, e2, e3, -⟩ := idx_facts2 t
  unfold iblk2
  rw [View.read_apply]
  show V c main_v15 _ = V c main_v15 _
  refine congrArg _ (funext fun a => Fin.ext ?_)
  match a with
  | ⟨0, _⟩ => show win2_1.index t (0 : Fin 2) * 5000 + 1 * p.val = t.val * 5000 + p.val; rw [e2]; omega
  | ⟨1, _⟩ => show win2_1.index t (1 : Fin 2) * 2 + 1 * d.val = d.val; rw [e3]; omega

/-- The weight's block is the whole weight at every point. -/
theorem weightBlock2 (c : Dev nD) (t : Fin cfg2.N) (k : Fin 128) (q : Fin 128) :
    (iblk2 V c 2 t : Vec Ideal S128x128 .f32) (ix2 k q) = (V c main_arg7 : S128x128.Idx → EReal) (ix2 k q) := by
  obtain ⟨-, -, -, -, e4, e5, -⟩ := idx_facts2 t
  unfold iblk2
  rw [View.read_apply]
  show V c main_arg7 _ = V c main_arg7 _
  refine congrArg _ (funext fun a => Fin.ext ?_)
  match a with
  | ⟨0, _⟩ => show win2_2.index t (0 : Fin 2) * 128 + 1 * k.val = k.val; rw [e4]; omega
  | ⟨1, _⟩ => show win2_2.index t (1 : Fin 2) * 128 + 1 * q.val = q.val; rw [e5]; omega

/-- The bias row's block is the whole row at every point. -/
theorem biasBlock2 (c : Dev nD) (t : Fin cfg2.N) (z : Fin 1) (q : Fin 128) :
    (iblk2 V c 3 t : Vec Ideal S1x128 .f32) (ix2 z q) = (V c main_v57 : S1x128.Idx → EReal) (ix2 z q) := by
  obtain ⟨-, -, -, -, -, -, e6, e7, -⟩ := idx_facts2 t
  unfold iblk2
  rw [View.read_apply]
  show V c main_v57 _ = V c main_v57 _
  refine congrArg _ (funext fun a => Fin.ext ?_)
  match a with
  | ⟨0, _⟩ => show win2_3.index t (0 : Fin 2) * 1 + 1 * z.val = z.val; rw [e6]; omega
  | ⟨1, _⟩ => show win2_3.index t (1 : Fin 2) * 128 + 1 * q.val = q.val; rw [e7]; omega

/-! ## What a point writes back -/

/-- Point `t` writes back block `t` of the dense stage of the arrays the region was entered with. -/
theorem flushed2_eq (c : Dev nD) (t : Fin cfg2.N) :
    (dat2 V c).flushed 4 t = ((cfg2.win 4).blk t).view.read (Elt Ideal)
      (packedPlain (K := 128) (V c main_v56) (V c main_v15) (V c main_arg7) (V c main_v57)) := by
  have ht := lt20_2 t
  obtain ⟨-, -, -, -, -, -, -, -, e8, e9⟩ := idx_facts2 t
  show (cfg2.win 4).cut (grid2.coords t) ((dat2 V c).after 4 t) = _
  rw [after2_4]
  unfold out2_4
  rw [View.canon_unit_zero zeroOffsets]
  simp only [View.ld_unit_zero (S := S5000x2) zeroOffsets, View.ld_unit_zero (S := S5000x128) zeroOffsets,
    View.ld_unit_zero (S := S128x128) zeroOffsets, View.ld_unit_zero (S := S1x128) zeroOffsets]
  funext j
  obtain ⟨p, q, rfl⟩ : ∃ (p : Fin 5000) (q : Fin 128), j = ix2 p q := ⟨j 0, j 1, eq_ix2 j⟩
  have hr : t.val * 5000 + p.val < 100000 := by have := p.isLt; omega
  have hemb : ((cfg2.win 4).blk t).view.emb (ix2 p q) = ix2 (⟨t.val * 5000 + p.val, hr⟩ : Fin 100000) q :=
    funext fun a => Fin.ext (by
      match a with
      | ⟨0, _⟩ => show win2_4.index t (0 : Fin 2) * 5000 + 1 * p.val = t.val * 5000 + p.val; rw [e8]; omega
      | ⟨1, _⟩ => show win2_4.index t (1 : Fin 2) * 128 + 1 * q.val = q.val; rw [e9]; omega)
  show k2_pay1 (iblk2 V c 1 t) (iblk2 V c 0 t) (iblk2 V c 2 t) (iblk2 V c 3 t) (ix2 p q)
    = packedPlain (K := 128) (V c main_v56) (V c main_v15) (V c main_arg7) (V c main_v57) (((cfg2.win 4).blk t).view.emb (ix2 p q))
  rw [hemb]
  refine (pay2_apply (iblk2 V c 1 t) (iblk2 V c 0 t) (iblk2 V c 2 t) (iblk2 V c 3 t) p q).trans ?_
  simp only [aggBlock2 V c t p _ hr, normBlock2 V c t p _ hr, weightBlock2 V c t, biasBlock2 V c t]
  rfl

/-! ## The cover, and the array after the region -/

/-- An index of the output array lies in point `t`'s block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v58).slice (win2_4.rect t)).set ↔ _
  rw [View.set_slice_whole, Rect.mem_set_unit]
  exact Iff.rfl

/-- After the region the output array is the dense stage of the arrays the region was entered with. -/
theorem region2_array (c : Dev nD) :
    (dat2 V c).arrAt 4 cfg2.N = packedPlain (K := 128) (V c main_v56) (V c main_v15) (V c main_arg7) (V c main_v57) :=
  (dat2 V c).arrAt_eq_of_cover 4 _ (fun t _ => flushed2_eq V c t) fun i => by
    have hi0 : (i 0).val < 100000 := (i 0).isLt
    have hi1 : (i 1).val < 128 := (i 1).isLt
    have hN : cfg2.N = 20 := N_2
    have hlt : (i 0).val / 5000 < cfg2.N := by rw [hN]; omega
    obtain ⟨-, -, -, -, -, -, -, -, e8, e9⟩ := idx_facts2 ⟨(i 0).val / 5000, hlt⟩
    refine ⟨⟨(i 0).val / 5000, hlt⟩, flush2_4 _, ?_⟩
    rw [mem_blk2]
    intro a
    match a with
    | ⟨0, _⟩ =>
      show win2_4.index ⟨(i 0).val / 5000, hlt⟩ (0 : Fin 2) * 5000 ≤ (i 0).val ∧ (i 0).val < win2_4.index ⟨(i 0).val / 5000, hlt⟩ (0 : Fin 2) * 5000 + 5000
      rw [e8]; show (i 0).val / 5000 * 5000 ≤ (i 0).val ∧ (i 0).val < (i 0).val / 5000 * 5000 + 5000; omega
    | ⟨1, _⟩ =>
      show win2_4.index ⟨(i 0).val / 5000, hlt⟩ (1 : Fin 2) * 128 ≤ (i 1).val ∧ (i 1).val < win2_4.index ⟨(i 0).val / 5000, hlt⟩ (1 : Fin 2) * 128 + 128
      rw [e9]; omega

end Cert.KernelIdeal.Hand

end
-- ==== Proof.RefLayers.lean ====
/-
  The reference program's three graph-convolution layers, read at the ideal instance (floats are extended reals, every
  format change the identity), each identified with the dense stage of `Cert.GraphConv`.

  Write `nd r` and `ns r` for the reference's two degree norms at node `r` (`normDst`, `normSrc`): the program counts
  the edges ending at each node (for `nd`) and the edges leaving it (for `ns`), raises the count to at least 1 and takes
  the power −1/2. Here the two are only named and read at a node; nothing about their values is used. For a layer with
  aggregated messages `agg` (one column for the first layer, 128 for the other two), weight `W` and bias `b`, the node
  features at node `r` and feature `j` are

      relu( (∑ₖ (agg r k · nd r) · W k j) + b j )

  times `ns r` for the first two layers (`layer1`, `layer2`), and exactly that for the third (`layer3`).

  Each proof reads the layer's host operations at the index `(r, j)`, outermost first: the product with the broadcast
  out-degree norm, the maximum with the broadcast zero word, the sum with the broadcast bias, the contraction as a sum
  over its one contracted axis, and under that sum the product of the aggregated messages with the broadcast in-degree
  norm. Every broadcast reads its operand at the coordinates it keeps, so the index it produces is `(r, k)`, `(k, j)`,
  `(j)` or `(r)` again. The operations already stand in the order of the formula, so no law of the extended reals is
  used: no factor crosses the sum, and the statements hold at infinite entries as well as at finite ones. The zero under
  `relu` stays the f32 word of +0.0 read at the ideal instance.
-/
import proofs.«181485_j46694884442368_2_alg».proof.Proof.Gen.ReferenceIdeal.Read
import proofs.«181485_j46694884442368_2_alg».proof.Proof.DenseLayer

noncomputable section

open scoped BigOperators

namespace Cert.ReferenceIdeal.RefValue

open Cert.ReferenceIdeal Cert.ReferenceIdeal.Gen Idealize.ShloMosaic Idealize.ShloMosaic.ValueIdx

/-- The in-degree norm at a node: the reference's array `(max 1 (number of edges ending at the node)) ^ (−1/2)`, read at
    the node. -/
def normDst (x1 : (⟨S1600000, .i32⟩ : BufTy).Contents (Elt Ideal)) : Fin 100000 → EReal :=
  fun r => Read.val_main_v12 (F := Ideal) x1 (ix1 r)

/-- The out-degree norm at a node: the reference's array `(max 1 (number of edges leaving the node)) ^ (−1/2)`, read at
    the node. -/
def normSrc (x0 : (⟨S1600000, .i32⟩ : BufTy).Contents (Elt Ideal)) : Fin 100000 → EReal :=
  fun r => Read.val_main_v9 (F := Ideal) x0 (ix1 r)

/-- First layer: one input feature per node. The features are `relu((agg · nd) W1 + b1)` scaled by `ns`, the
    contraction a sum over the single input feature. -/
theorem layer1 (x0 x1 : (⟨S1600000, .i32⟩ : BufTy).Contents (Elt Ideal))
    (x3 : (⟨S1x128, .f32⟩ : BufTy).Contents (Elt Ideal)) (x4 : (⟨S128, .f32⟩ : BufTy).Contents (Elt Ideal)) :
    Read.val_main_v35 (F := Ideal) x0 x1 x3 x4 =
      Cert.GraphConv.denseReluScaled (K := 1) (Read.val_main_v25 (F := Ideal) x0 x1) (normDst x1) (normSrc x0) x3
        (fun j => x4 (ix1 j)) := by
  funext i
  obtain ⟨r, j, rfl⟩ : ∃ (r : Fin 100000) (j : Fin 128), i = ix2 r j := ⟨i 0, i 1, eq_ix2 i⟩
  rw [Cert.GraphConv.denseReluScaled_apply]
  rw [Read.val_main_v35_apply, Read.val_main_v32_apply, Read.val_main_v31_apply, Read.val_main_v28_apply,
    Read.val_main_v30_apply, Read.val_main_v29_apply, Read.val_main_v34_apply, Read.val_main_v33_apply,
    Read.val_main_call2_v0_apply, Read.val_main_call2_cst_apply]
  -- the bias is read at `(j)`, the out-degree norm at `(r)`
  have hb : Read.idx_main_v29 (Read.idx_main_v30 (ix2 r j)) = ix1 j :=
    funext fun a => by match a with | ⟨0, _⟩ => rfl
  have hs : Read.idx_main_v33 (Read.idx_main_v34 (ix2 r j)) = ix1 r :=
    funext fun a => by match a with | ⟨0, _⟩ => rfl
  -- the contraction reads its left operand at `(r, k)` and its right operand at `(k, j)`
  have hl : ∀ k : Fin 1, Read.lidx_main_v28 (ix2 r j) k = ix2 r k := fun k =>
    funext fun a => by match a with | ⟨0, _⟩ => rfl | ⟨1, _⟩ => rfl
  have hr : ∀ k : Fin 1, Read.ridx_main_v28 (ix2 r j) k = ix2 k j := fun k =>
    funext fun a => by match a with | ⟨0, _⟩ => rfl | ⟨1, _⟩ => rfl
  -- the in-degree norm under the sum is read at `(r)`
  have hd : ∀ k : Fin 1, Read.idx_main_v26 (ix2 r k) = ix1 r := fun k =>
    funext fun a => by match a with | ⟨0, _⟩ => rfl
  rw [hb, hs]
  have hsum : (∑ k : Fin 1, Read.val_main_v27 (F := Ideal) x0 x1 (Read.lidx_main_v28 (ix2 r j) k) * x3 (Read.ridx_main_v28 (ix2 r j) k))
      = ∑ k : Fin 1, (Read.val_main_v25 (F := Ideal) x0 x1 (ix2 r k) * normDst x1 r) * x3 (ix2 k j) :=
    Finset.sum_congr rfl fun k _ => by
      rw [hl k, hr k, Read.val_main_v27_apply, Read.val_main_v26_apply, hd k]
      rfl
  rw [hsum]
  rfl

/-- Second layer: 128 input features per node. The features are `relu((agg · nd) W2 + b2)` scaled by `ns`. -/
theorem layer2 (x0 x1 : (⟨S1600000, .i32⟩ : BufTy).Contents (Elt Ideal))
    (x3 : (⟨S1x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    Read.val_main_v56 (F := Ideal) x0 x1 x3 x4 x5 x6 =
      Cert.GraphConv.denseReluScaled (K := 128) (Read.val_main_v45 (F := Ideal) x0 x1 x3 x4) (normDst x1) (normSrc x0) x5
        (fun j => x6 (ix1 j)) := by
  funext i
  obtain ⟨r, j, rfl⟩ : ∃ (r : Fin 100000) (j : Fin 128), i = ix2 r j := ⟨i 0, i 1, eq_ix2 i⟩
  rw [Cert.GraphConv.denseReluScaled_apply]
  rw [Read.val_main_v56_apply, Read.val_main_v53_apply, Read.val_main_v52_apply, Read.val_main_v49_apply,
    Read.val_main_v51_apply, Read.val_main_v50_apply, Read.val_main_v55_apply, Read.val_main_v54_apply,
    Read.val_main_call3_v0_apply, Read.val_main_call3_cst_apply]
  -- the bias is read at `(j)`, the out-degree norm at `(r)`
  have hb : Read.idx_main_v50 (Read.idx_main_v51 (ix2 r j)) = ix1 j :=
    funext fun a => by match a with | ⟨0, _⟩ => rfl
  have hs : Read.idx_main_v54 (Read.idx_main_v55 (ix2 r j)) = ix1 r :=
    funext fun a => by match a with | ⟨0, _⟩ => rfl
  -- the contraction reads its left operand at `(r, k)` and its right operand at `(k, j)`
  have hl : ∀ k : Fin 128, Read.lidx_main_v49 (ix2 r j) k = ix2 r k := fun k =>
    funext fun a => by match a with | ⟨0, _⟩ => rfl | ⟨1, _⟩ => rfl
  have hr : ∀ k : Fin 128, Read.ridx_main_v49 (ix2 r j) k = ix2 k j := fun k =>
    funext fun a => by match a with | ⟨0, _⟩ => rfl | ⟨1, _⟩ => rfl
  -- the in-degree norm under the sum is read at `(r)`
  have hd : ∀ k : Fin 128, Read.idx_main_v46 (Read.idx_main_v47 (ix2 r k)) = ix1 r := fun k =>
    funext fun a => by match a with | ⟨0, _⟩ => rfl
  rw [hb, hs]
  have hsum : (∑ k : Fin 128, Read.val_main_v48 (F := Ideal) x0 x1 x3 x4 (Read.lidx_main_v49 (ix2 r j) k) * x5 (Read.ridx_main_v49 (ix2 r j) k))
      = ∑ k : Fin 128, (Read.val_main_v45 (F := Ideal) x0 x1 x3 x4 (ix2 r k) * normDst x1 r) * x5 (ix2 k j) :=
    Finset.sum_congr rfl fun k _ => by
      rw [hl k, hr k, Read.val_main_v48_apply, Read.val_main_v47_apply, Read.val_main_v46_apply, hd k]
      rfl
  rw [hsum]
  rfl

/-- Third layer: 128 input features per node. The features are `relu((agg · nd) W3 + b3)`, with no scaling after. -/
theorem layer3 (x0 x1 : (⟨S1600000, .i32⟩ : BufTy).Contents (Elt Ideal))
    (x3 : (⟨S1x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) :
    Read.val_main_v74 (F := Ideal) x0 x1 x3 x4 x5 x6 x7 x8 =
      Cert.GraphConv.denseRelu (K := 128) (Read.val_main_v66 (F := Ideal) x0 x1 x3 x4 x5 x6) (normDst x1) x7
        (fun j => x8 (ix1 j)) := by
  funext i
  obtain ⟨r, j, rfl⟩ : ∃ (r : Fin 100000) (j : Fin 128), i = ix2 r j := ⟨i 0, i 1, eq_ix2 i⟩
  rw [Cert.GraphConv.denseRelu_apply]
  rw [Read.val_main_v74_apply, Read.val_main_v73_apply, Read.val_main_v70_apply, Read.val_main_v72_apply,
    Read.val_main_v71_apply, Read.val_main_call4_v0_apply, Read.val_main_call4_cst_apply]
  -- the bias is read at `(j)`
  have hb : Read.idx_main_v71 (Read.idx_main_v72 (ix2 r j)) = ix1 j :=
    funext fun a => by match a with | ⟨0, _⟩ => rfl
  -- the contraction reads its left operand at `(r, k)` and its right operand at `(k, j)`
  have hl : ∀ k : Fin 128, Read.lidx_main_v70 (ix2 r j) k = ix2 r k := fun k =>
    funext fun a => by match a with | ⟨0, _⟩ => rfl | ⟨1, _⟩ => rfl
  have hr : ∀ k : Fin 128, Read.ridx_main_v70 (ix2 r j) k = ix2 k j := fun k =>
    funext fun a => by match a with | ⟨0, _⟩ => rfl | ⟨1, _⟩ => rfl
  -- the in-degree norm under the sum is read at `(r)`
  have hd : ∀ k : Fin 128, Read.idx_main_v67 (Read.idx_main_v68 (ix2 r k)) = ix1 r := fun k =>
    funext fun a => by match a with | ⟨0, _⟩ => rfl
  rw [hb]
  have hsum : (∑ k : Fin 128, Read.val_main_v69 (F := Ideal) x0 x1 x3 x4 x5 x6 (Read.lidx_main_v70 (ix2 r j) k) * x7 (Read.ridx_main_v70 (ix2 r j) k))
      = ∑ k : Fin 128, (Read.val_main_v66 (F := Ideal) x0 x1 x3 x4 x5 x6 (ix2 r k) * normDst x1 r) * x7 (ix2 k j) :=
    Finset.sum_congr rfl fun k _ => by
      rw [hl k, hr k, Read.val_main_v69_apply, Read.val_main_v68_apply, Read.val_main_v67_apply, hd k]
      rfl
  rw [hsum]
  rfl

end Cert.ReferenceIdeal.RefValue

end
-- ==== Proof.Carry.lean ====
/-
  Buffers that cross a boundary untouched. The program's thirteen segments write only their own results: a host
  stretch writes the buffers of its operations, a tiled region writes its output array and leaves its input arrays
  (the aggregated messages it reads, the packed norms, its weight, its bias row) and every other buffer as it found them.
  So the argument arrays the later stretches read, and the packed norms that all three regions read, hold at every later
  boundary what they held when the first region was entered. Each fact below is one such crossing, composed back to
  that first entry.
-/
import proofs.«181485_j46694884442368_2_alg».proof.Proof.Gen.KernelIdeal.Frame
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg)

/-! ## After the first region -/

theorem step6_arg0 (c : Dev nD) : W6 m ρ c (Proc.devRef .tc main_arg0) = W5 m ρ c (Proc.devRef .tc main_arg0) :=
  W6_of_ne m ρ c main_arg0 (by decide)
theorem carry6_arg0 (c : Dev nD) : W6 m ρ c (Proc.devRef .tc main_arg0) = W5 m ρ c (Proc.devRef .tc main_arg0) := step6_arg0 m ρ c

theorem step6_arg1 (c : Dev nD) : W6 m ρ c (Proc.devRef .tc main_arg1) = W5 m ρ c (Proc.devRef .tc main_arg1) :=
  W6_of_ne m ρ c main_arg1 (by decide)
theorem carry6_arg1 (c : Dev nD) : W6 m ρ c (Proc.devRef .tc main_arg1) = W5 m ρ c (Proc.devRef .tc main_arg1) := step6_arg1 m ρ c

theorem step6_arg2 (c : Dev nD) : W6 m ρ c (Proc.devRef .tc main_arg2) = W5 m ρ c (Proc.devRef .tc main_arg2) :=
  W6_of_ne m ρ c main_arg2 (by decide)
theorem carry6_arg2 (c : Dev nD) : W6 m ρ c (Proc.devRef .tc main_arg2) = W5 m ρ c (Proc.devRef .tc main_arg2) := step6_arg2 m ρ c

theorem step6_arg5 (c : Dev nD) : W6 m ρ c (Proc.devRef .tc main_arg5) = W5 m ρ c (Proc.devRef .tc main_arg5) :=
  W6_of_ne m ρ c main_arg5 (by decide)
theorem carry6_arg5 (c : Dev nD) : W6 m ρ c (Proc.devRef .tc main_arg5) = W5 m ρ c (Proc.devRef .tc main_arg5) := step6_arg5 m ρ c

theorem step6_arg6 (c : Dev nD) : W6 m ρ c (Proc.devRef .tc main_arg6) = W5 m ρ c (Proc.devRef .tc main_arg6) :=
  W6_of_ne m ρ c main_arg6 (by decide)
theorem carry6_arg6 (c : Dev nD) : W6 m ρ c (Proc.devRef .tc main_arg6) = W5 m ρ c (Proc.devRef .tc main_arg6) := step6_arg6 m ρ c

theorem step6_arg7 (c : Dev nD) : W6 m ρ c (Proc.devRef .tc main_arg7) = W5 m ρ c (Proc.devRef .tc main_arg7) :=
  W6_of_ne m ρ c main_arg7 (by decide)
theorem carry6_arg7 (c : Dev nD) : W6 m ρ c (Proc.devRef .tc main_arg7) = W5 m ρ c (Proc.devRef .tc main_arg7) := step6_arg7 m ρ c

theorem step6_arg8 (c : Dev nD) : W6 m ρ c (Proc.devRef .tc main_arg8) = W5 m ρ c (Proc.devRef .tc main_arg8) :=
  W6_of_ne m ρ c main_arg8 (by decide)
theorem carry6_arg8 (c : Dev nD) : W6 m ρ c (Proc.devRef .tc main_arg8) = W5 m ρ c (Proc.devRef .tc main_arg8) := step6_arg8 m ρ c

theorem step6_arg9 (c : Dev nD) : W6 m ρ c (Proc.devRef .tc main_arg9) = W5 m ρ c (Proc.devRef .tc main_arg9) :=
  W6_of_ne m ρ c main_arg9 (by decide)
theorem carry6_arg9 (c : Dev nD) : W6 m ρ c (Proc.devRef .tc main_arg9) = W5 m ρ c (Proc.devRef .tc main_arg9) := step6_arg9 m ρ c

theorem step6_arg10 (c : Dev nD) : W6 m ρ c (Proc.devRef .tc main_arg10) = W5 m ρ c (Proc.devRef .tc main_arg10) :=
  W6_of_ne m ρ c main_arg10 (by decide)
theorem carry6_arg10 (c : Dev nD) : W6 m ρ c (Proc.devRef .tc main_arg10) = W5 m ρ c (Proc.devRef .tc main_arg10) := step6_arg10 m ρ c

theorem step6_v15 (c : Dev nD) : W6 m ρ c (Proc.devRef .tc main_v15) = W5 m ρ c (Proc.devRef .tc main_v15) :=
  (W6_arr m ρ c 1).trans (((dat0 (V5 m ρ) c).arrAt_in 1 rfl _).trans (A_eq0 (V5 m ρ) c 1))
theorem carry6_v15 (c : Dev nD) : W6 m ρ c (Proc.devRef .tc main_v15) = W5 m ρ c (Proc.devRef .tc main_v15) := step6_v15 m ρ c

/-! ## When the second region is entered -/

theorem step7_arg0 (c : Dev nD) : W7 m ρ c (Proc.devRef .tc main_arg0) = W6 m ρ c (Proc.devRef .tc main_arg0) := by
  show StableHlo.after hostOps1 (W6 m ρ c) (Proc.devRef .tc main_arg0) = _
  dsimp only [hostOps1]
  after_results
theorem carry7_arg0 (c : Dev nD) : W7 m ρ c (Proc.devRef .tc main_arg0) = W5 m ρ c (Proc.devRef .tc main_arg0) :=
  (step7_arg0 m ρ c).trans (carry6_arg0 m ρ c)

theorem step7_arg1 (c : Dev nD) : W7 m ρ c (Proc.devRef .tc main_arg1) = W6 m ρ c (Proc.devRef .tc main_arg1) := by
  show StableHlo.after hostOps1 (W6 m ρ c) (Proc.devRef .tc main_arg1) = _
  dsimp only [hostOps1]
  after_results
theorem carry7_arg1 (c : Dev nD) : W7 m ρ c (Proc.devRef .tc main_arg1) = W5 m ρ c (Proc.devRef .tc main_arg1) :=
  (step7_arg1 m ρ c).trans (carry6_arg1 m ρ c)

theorem step7_arg2 (c : Dev nD) : W7 m ρ c (Proc.devRef .tc main_arg2) = W6 m ρ c (Proc.devRef .tc main_arg2) := by
  show StableHlo.after hostOps1 (W6 m ρ c) (Proc.devRef .tc main_arg2) = _
  dsimp only [hostOps1]
  after_results
theorem carry7_arg2 (c : Dev nD) : W7 m ρ c (Proc.devRef .tc main_arg2) = W5 m ρ c (Proc.devRef .tc main_arg2) :=
  (step7_arg2 m ρ c).trans (carry6_arg2 m ρ c)

theorem step7_arg5 (c : Dev nD) : W7 m ρ c (Proc.devRef .tc main_arg5) = W6 m ρ c (Proc.devRef .tc main_arg5) := by
  show StableHlo.after hostOps1 (W6 m ρ c) (Proc.devRef .tc main_arg5) = _
  dsimp only [hostOps1]
  after_results
theorem carry7_arg5 (c : Dev nD) : W7 m ρ c (Proc.devRef .tc main_arg5) = W5 m ρ c (Proc.devRef .tc main_arg5) :=
  (step7_arg5 m ρ c).trans (carry6_arg5 m ρ c)

theorem step7_arg7 (c : Dev nD) : W7 m ρ c (Proc.devRef .tc main_arg7) = W6 m ρ c (Proc.devRef .tc main_arg7) := by
  show StableHlo.after hostOps1 (W6 m ρ c) (Proc.devRef .tc main_arg7) = _
  dsimp only [hostOps1]
  after_results
theorem carry7_arg7 (c : Dev nD) : W7 m ρ c (Proc.devRef .tc main_arg7) = W5 m ρ c (Proc.devRef .tc main_arg7) :=
  (step7_arg7 m ρ c).trans (carry6_arg7 m ρ c)

theorem step7_arg8 (c : Dev nD) : W7 m ρ c (Proc.devRef .tc main_arg8) = W6 m ρ c (Proc.devRef .tc main_arg8) := by
  show StableHlo.after hostOps1 (W6 m ρ c) (Proc.devRef .tc main_arg8) = _
  dsimp only [hostOps1]
  after_results
theorem carry7_arg8 (c : Dev nD) : W7 m ρ c (Proc.devRef .tc main_arg8) = W5 m ρ c (Proc.devRef .tc main_arg8) :=
  (step7_arg8 m ρ c).trans (carry6_arg8 m ρ c)

theorem step7_arg9 (c : Dev nD) : W7 m ρ c (Proc.devRef .tc main_arg9) = W6 m ρ c (Proc.devRef .tc main_arg9) := by
  show StableHlo.after hostOps1 (W6 m ρ c) (Proc.devRef .tc main_arg9) = _
  dsimp only [hostOps1]
  after_results
theorem carry7_arg9 (c : Dev nD) : W7 m ρ c (Proc.devRef .tc main_arg9) = W5 m ρ c (Proc.devRef .tc main_arg9) :=
  (step7_arg9 m ρ c).trans (carry6_arg9 m ρ c)

theorem step7_arg10 (c : Dev nD) : W7 m ρ c (Proc.devRef .tc main_arg10) = W6 m ρ c (Proc.devRef .tc main_arg10) := by
  show StableHlo.after hostOps1 (W6 m ρ c) (Proc.devRef .tc main_arg10) = _
  dsimp only [hostOps1]
  after_results
theorem carry7_arg10 (c : Dev nD) : W7 m ρ c (Proc.devRef .tc main_arg10) = W5 m ρ c (Proc.devRef .tc main_arg10) :=
  (step7_arg10 m ρ c).trans (carry6_arg10 m ρ c)

theorem step7_v15 (c : Dev nD) : W7 m ρ c (Proc.devRef .tc main_v15) = W6 m ρ c (Proc.devRef .tc main_v15) := by
  show StableHlo.after hostOps1 (W6 m ρ c) (Proc.devRef .tc main_v15) = _
  dsimp only [hostOps1]
  after_results
theorem carry7_v15 (c : Dev nD) : W7 m ρ c (Proc.devRef .tc main_v15) = W5 m ρ c (Proc.devRef .tc main_v15) :=
  (step7_v15 m ρ c).trans (carry6_v15 m ρ c)

/-! ## After the second region -/

theorem step8_arg0 (c : Dev nD) : W8 m ρ c (Proc.devRef .tc main_arg0) = W7 m ρ c (Proc.devRef .tc main_arg0) :=
  W8_of_ne m ρ c main_arg0 (by decide)
theorem carry8_arg0 (c : Dev nD) : W8 m ρ c (Proc.devRef .tc main_arg0) = W5 m ρ c (Proc.devRef .tc main_arg0) :=
  (step8_arg0 m ρ c).trans (carry7_arg0 m ρ c)

theorem step8_arg1 (c : Dev nD) : W8 m ρ c (Proc.devRef .tc main_arg1) = W7 m ρ c (Proc.devRef .tc main_arg1) :=
  W8_of_ne m ρ c main_arg1 (by decide)
theorem carry8_arg1 (c : Dev nD) : W8 m ρ c (Proc.devRef .tc main_arg1) = W5 m ρ c (Proc.devRef .tc main_arg1) :=
  (step8_arg1 m ρ c).trans (carry7_arg1 m ρ c)

theorem step8_arg2 (c : Dev nD) : W8 m ρ c (Proc.devRef .tc main_arg2) = W7 m ρ c (Proc.devRef .tc main_arg2) :=
  W8_of_ne m ρ c main_arg2 (by decide)
theorem carry8_arg2 (c : Dev nD) : W8 m ρ c (Proc.devRef .tc main_arg2) = W5 m ρ c (Proc.devRef .tc main_arg2) :=
  (step8_arg2 m ρ c).trans (carry7_arg2 m ρ c)

theorem step8_arg7 (c : Dev nD) : W8 m ρ c (Proc.devRef .tc main_arg7) = W7 m ρ c (Proc.devRef .tc main_arg7) :=
  W8_of_ne m ρ c main_arg7 (by decide)
theorem carry8_arg7 (c : Dev nD) : W8 m ρ c (Proc.devRef .tc main_arg7) = W5 m ρ c (Proc.devRef .tc main_arg7) :=
  (step8_arg7 m ρ c).trans (carry7_arg7 m ρ c)

theorem step8_arg8 (c : Dev nD) : W8 m ρ c (Proc.devRef .tc main_arg8) = W7 m ρ c (Proc.devRef .tc main_arg8) :=
  W8_of_ne m ρ c main_arg8 (by decide)
theorem carry8_arg8 (c : Dev nD) : W8 m ρ c (Proc.devRef .tc main_arg8) = W5 m ρ c (Proc.devRef .tc main_arg8) :=
  (step8_arg8 m ρ c).trans (carry7_arg8 m ρ c)

theorem step8_arg9 (c : Dev nD) : W8 m ρ c (Proc.devRef .tc main_arg9) = W7 m ρ c (Proc.devRef .tc main_arg9) :=
  W8_of_ne m ρ c main_arg9 (by decide)
theorem carry8_arg9 (c : Dev nD) : W8 m ρ c (Proc.devRef .tc main_arg9) = W5 m ρ c (Proc.devRef .tc main_arg9) :=
  (step8_arg9 m ρ c).trans (carry7_arg9 m ρ c)

theorem step8_arg10 (c : Dev nD) : W8 m ρ c (Proc.devRef .tc main_arg10) = W7 m ρ c (Proc.devRef .tc main_arg10) :=
  W8_of_ne m ρ c main_arg10 (by decide)
theorem carry8_arg10 (c : Dev nD) : W8 m ρ c (Proc.devRef .tc main_arg10) = W5 m ρ c (Proc.devRef .tc main_arg10) :=
  (step8_arg10 m ρ c).trans (carry7_arg10 m ρ c)

theorem step8_v15 (c : Dev nD) : W8 m ρ c (Proc.devRef .tc main_v15) = W7 m ρ c (Proc.devRef .tc main_v15) :=
  (W8_arr m ρ c 1).trans (((dat1 (V7 m ρ) c).arrAt_in 1 rfl _).trans (A_eq1 (V7 m ρ) c 1))
theorem carry8_v15 (c : Dev nD) : W8 m ρ c (Proc.devRef .tc main_v15) = W5 m ρ c (Proc.devRef .tc main_v15) :=
  (step8_v15 m ρ c).trans (carry7_v15 m ρ c)

/-! ## When the third region is entered -/

theorem step9_arg2 (c : Dev nD) : W9 m ρ c (Proc.devRef .tc main_arg2) = W8 m ρ c (Proc.devRef .tc main_arg2) := by
  show StableHlo.after hostOps2 (W8 m ρ c) (Proc.devRef .tc main_arg2) = _
  dsimp only [hostOps2]
  after_results
theorem carry9_arg2 (c : Dev nD) : W9 m ρ c (Proc.devRef .tc main_arg2) = W5 m ρ c (Proc.devRef .tc main_arg2) :=
  (step9_arg2 m ρ c).trans (carry8_arg2 m ρ c)

theorem step9_arg7 (c : Dev nD) : W9 m ρ c (Proc.devRef .tc main_arg7) = W8 m ρ c (Proc.devRef .tc main_arg7) := by
  show StableHlo.after hostOps2 (W8 m ρ c) (Proc.devRef .tc main_arg7) = _
  dsimp only [hostOps2]
  after_results
theorem carry9_arg7 (c : Dev nD) : W9 m ρ c (Proc.devRef .tc main_arg7) = W5 m ρ c (Proc.devRef .tc main_arg7) :=
  (step9_arg7 m ρ c).trans (carry8_arg7 m ρ c)

theorem step9_arg9 (c : Dev nD) : W9 m ρ c (Proc.devRef .tc main_arg9) = W8 m ρ c (Proc.devRef .tc main_arg9) := by
  show StableHlo.after hostOps2 (W8 m ρ c) (Proc.devRef .tc main_arg9) = _
  dsimp only [hostOps2]
  after_results
theorem carry9_arg9 (c : Dev nD) : W9 m ρ c (Proc.devRef .tc main_arg9) = W5 m ρ c (Proc.devRef .tc main_arg9) :=
  (step9_arg9 m ρ c).trans (carry8_arg9 m ρ c)

theorem step9_arg10 (c : Dev nD) : W9 m ρ c (Proc.devRef .tc main_arg10) = W8 m ρ c (Proc.devRef .tc main_arg10) := by
  show StableHlo.after hostOps2 (W8 m ρ c) (Proc.devRef .tc main_arg10) = _
  dsimp only [hostOps2]
  after_results
theorem carry9_arg10 (c : Dev nD) : W9 m ρ c (Proc.devRef .tc main_arg10) = W5 m ρ c (Proc.devRef .tc main_arg10) :=
  (step9_arg10 m ρ c).trans (carry8_arg10 m ρ c)

theorem step9_v15 (c : Dev nD) : W9 m ρ c (Proc.devRef .tc main_v15) = W8 m ρ c (Proc.devRef .tc main_v15) := by
  show StableHlo.after hostOps2 (W8 m ρ c) (Proc.devRef .tc main_v15) = _
  dsimp only [hostOps2]
  after_results
theorem carry9_v15 (c : Dev nD) : W9 m ρ c (Proc.devRef .tc main_v15) = W5 m ρ c (Proc.devRef .tc main_v15) :=
  (step9_v15 m ρ c).trans (carry8_v15 m ρ c)

/-! ## After the third region -/

theorem step10_arg2 (c : Dev nD) : W10 m ρ c (Proc.devRef .tc main_arg2) = W9 m ρ c (Proc.devRef .tc main_arg2) :=
  W10_of_ne m ρ c main_arg2 (by decide)
theorem carry10_arg2 (c : Dev nD) : W10 m ρ c (Proc.devRef .tc main_arg2) = W5 m ρ c (Proc.devRef .tc main_arg2) :=
  (step10_arg2 m ρ c).trans (carry9_arg2 m ρ c)

theorem step10_arg9 (c : Dev nD) : W10 m ρ c (Proc.devRef .tc main_arg9) = W9 m ρ c (Proc.devRef .tc main_arg9) :=
  W10_of_ne m ρ c main_arg9 (by decide)
theorem carry10_arg9 (c : Dev nD) : W10 m ρ c (Proc.devRef .tc main_arg9) = W5 m ρ c (Proc.devRef .tc main_arg9) :=
  (step10_arg9 m ρ c).trans (carry9_arg9 m ρ c)

theorem step10_arg10 (c : Dev nD) : W10 m ρ c (Proc.devRef .tc main_arg10) = W9 m ρ c (Proc.devRef .tc main_arg10) :=
  W10_of_ne m ρ c main_arg10 (by decide)
theorem carry10_arg10 (c : Dev nD) : W10 m ρ c (Proc.devRef .tc main_arg10) = W5 m ρ c (Proc.devRef .tc main_arg10) :=
  (step10_arg10 m ρ c).trans (carry9_arg10 m ρ c)

end Cert.KernelIdeal.Hand

end
-- ==== Proof.Stages.lean ====
/-
  What each later stretch of host operations computes, against the reference's own stages.

  Between two tiled regions the kernel program gathers the previous layer's scaled node features along the edges'
  sources (negative indices wrapped once by the number of nodes, as the reference does) and sums them at the edges'
  targets into zeros; it also reshapes the next bias into one row. After the last region it pools the node features
  per graph (sums by graph id, divides by the clamped node counts), multiplies by the classifier's weight and adds its
  bias. These are the reference's operations, one for one and in the same order; the kernel program's gathers run on
  arrays it has rounded to a narrower float format and widened back, which the ideal instance does not see (both
  changes of format are the identity there). So once the region's output is known to be the reference's stage, the
  stretch's result is the reference's next stage: the two terms unfold to the same operations on the same operands.
-/
import proofs.«181485_j46694884442368_2_alg».proof.Proof.Gen.KernelIdeal.Frame
import proofs.«181485_j46694884442368_2_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-- A bias of 128 entries reshaped to one row of 128: the row's entry `j` is the bias's entry `j`. -/
theorem biasAsRow_apply (x : S128.Idx → EReal) (j : Fin 128) :
    shapeCast S1x128 x shapeCasts_S128_S1x128 (ix2 (0 : Fin 1) j) = x (ix1 j) :=
  shapeCast_apply x shapeCasts_S128_S1x128 (ix2 (0 : Fin 1) j) (ix1 j) (by
    rw [Shape.rowMajor_val_one, Shape.rowMajor_val_two]
    show j.val = 0 * 128 + j.val
    omega)

/-! ## Into the second region -/

set_option maxHeartbeats 4000000 in
/-- The second layer's aggregated messages: the first layer's scaled features gathered along the edges' sources and summed at their targets. -/
theorem entry1_agg (c : Dev nD) (x0 x1 : (⟨Cert.ReferenceIdeal.S1600000, .i32⟩ : BufTy).Contents (Elt Ideal)) (x3 : (⟨Cert.ReferenceIdeal.S1x128, .f32⟩ : BufTy).Contents (Elt Ideal)) (x4 : (⟨Cert.ReferenceIdeal.S128, .f32⟩ : BufTy).Contents (Elt Ideal))
    (hin : W6 m ρ c (Proc.devRef .tc main_v32) = Cert.ReferenceIdeal.Read.val_main_v35 (F := Ideal) x0 x1 x3 x4)
    (h0 : W6 m ρ c (Proc.devRef .tc main_arg0) = x0) (h1 : W6 m ρ c (Proc.devRef .tc main_arg1) = x1) :
    W7 m ρ c (Proc.devRef .tc main_v43) = Cert.ReferenceIdeal.Read.val_main_v45 (F := Ideal) x0 x1 x3 x4 := by
  show StableHlo.after hostOps1 (W6 m ρ c) (Proc.devRef .tc main_v43) = _
  dsimp only [hostOps1]
  after_results_simp
  rw [hin, h0, h1]
  simp only [Cert.ReferenceIdeal.Read.val_main_v45, Cert.ReferenceIdeal.Read.val_main_v44, Cert.ReferenceIdeal.Read.val_main_v43, Cert.ReferenceIdeal.Read.val_main_cst_10, Cert.ReferenceIdeal.Read.val_main_v42, Cert.ReferenceIdeal.Read.val_main_v41, Cert.ReferenceIdeal.Read.val_main_v40, Cert.ReferenceIdeal.Read.val_main_v39, Cert.ReferenceIdeal.Read.val_main_v38, Cert.ReferenceIdeal.Read.val_main_c_9, Cert.ReferenceIdeal.Read.val_main_v37, Cert.ReferenceIdeal.Read.val_main_v36, Cert.ReferenceIdeal.Read.val_main_c_8]
  rfl

/-- The second layer's bias as the one-row array its region loads. -/
theorem entry1_bias (c : Dev nD) (xb : (⟨Cert.ReferenceIdeal.S128, .f32⟩ : BufTy).Contents (Elt Ideal)) (hb : W6 m ρ c (Proc.devRef .tc main_arg6) = xb) (j : Fin 128) :
    (W7 m ρ c (Proc.devRef .tc main_v44) : S1x128.Idx → EReal) (ix2 (0 : Fin 1) j) = (xb : S128.Idx → EReal) (ix1 j) := by
  show (StableHlo.after hostOps1 (W6 m ρ c) (Proc.devRef .tc main_v44) : S1x128.Idx → EReal) (ix2 (0 : Fin 1) j) = _
  dsimp only [hostOps1]
  after_results
  rw [hb]
  exact biasAsRow_apply xb j

/-! ## Into the third region -/

set_option maxHeartbeats 4000000 in
/-- The third layer's aggregated messages: the second layer's scaled features gathered along the edges' sources and summed at their targets. -/
theorem entry2_agg (c : Dev nD) (x0 x1 : (⟨Cert.ReferenceIdeal.S1600000, .i32⟩ : BufTy).Contents (Elt Ideal)) (x3 : (⟨Cert.ReferenceIdeal.S1x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
    (hin : W8 m ρ c (Proc.devRef .tc main_v45) = Cert.ReferenceIdeal.Read.val_main_v56 (F := Ideal) x0 x1 x3 x4 x5 x6)
    (h0 : W8 m ρ c (Proc.devRef .tc main_arg0) = x0) (h1 : W8 m ρ c (Proc.devRef .tc main_arg1) = x1) :
    W9 m ρ c (Proc.devRef .tc main_v56) = Cert.ReferenceIdeal.Read.val_main_v66 (F := Ideal) x0 x1 x3 x4 x5 x6 := by
  show StableHlo.after hostOps2 (W8 m ρ c) (Proc.devRef .tc main_v56) = _
  dsimp only [hostOps2]
  after_results_simp
  rw [hin, h0, h1]
  simp only [Cert.ReferenceIdeal.Read.val_main_v66, Cert.ReferenceIdeal.Read.val_main_v65, Cert.ReferenceIdeal.Read.val_main_v64, Cert.ReferenceIdeal.Read.val_main_cst_13, Cert.ReferenceIdeal.Read.val_main_v63, Cert.ReferenceIdeal.Read.val_main_v62, Cert.ReferenceIdeal.Read.val_main_v61, Cert.ReferenceIdeal.Read.val_main_v60, Cert.ReferenceIdeal.Read.val_main_v59, Cert.ReferenceIdeal.Read.val_main_c_12, Cert.ReferenceIdeal.Read.val_main_v58, Cert.ReferenceIdeal.Read.val_main_v57, Cert.ReferenceIdeal.Read.val_main_c_11]
  rfl

/-- The third layer's bias as the one-row array its region loads. -/
theorem entry2_bias (c : Dev nD) (xb : (⟨Cert.ReferenceIdeal.S128, .f32⟩ : BufTy).Contents (Elt Ideal)) (hb : W8 m ρ c (Proc.devRef .tc main_arg8) = xb) (j : Fin 128) :
    (W9 m ρ c (Proc.devRef .tc main_v57) : S1x128.Idx → EReal) (ix2 (0 : Fin 1) j) = (xb : S128.Idx → EReal) (ix1 j) := by
  show (StableHlo.after hostOps2 (W8 m ρ c) (Proc.devRef .tc main_v57) : S1x128.Idx → EReal) (ix2 (0 : Fin 1) j) = _
  dsimp only [hostOps2]
  after_results
  rw [hb]
  exact biasAsRow_apply xb j

/-! ## After the third region -/

set_option maxHeartbeats 4000000 in
/-- The program's result: the third layer's node features pooled per graph (the sum over each graph's nodes divided by the
    graph's clamped node count), times the classifier's weight, plus its bias. -/
theorem tail_value (c : Dev nD) (x0 x1 : (⟨Cert.ReferenceIdeal.S1600000, .i32⟩ : BufTy).Contents (Elt Ideal)) (x2 : (⟨Cert.ReferenceIdeal.S100000, .i32⟩ : BufTy).Contents (Elt Ideal)) (x3 : (⟨Cert.ReferenceIdeal.S1x128, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128, .f32⟩ : BufTy).Contents (Elt Ideal))
    (x9 : (⟨Cert.ReferenceIdeal.S128x2, .f32⟩ : BufTy).Contents (Elt Ideal)) (x10 : (⟨Cert.ReferenceIdeal.S2, .f32⟩ : BufTy).Contents (Elt Ideal))
    (hin : W10 m ρ c (Proc.devRef .tc main_v58) = Cert.ReferenceIdeal.Read.val_main_v74 (F := Ideal) x0 x1 x3 x4 x5 x6 x7 x8)
    (h2 : W10 m ρ c (Proc.devRef .tc main_arg2) = x2) (h9 : W10 m ρ c (Proc.devRef .tc main_arg9) = x9)
    (h10 : W10 m ρ c (Proc.devRef .tc main_arg10) = x10) :
    W13 m ρ c (Proc.devRef .tc main_v73) = Cert.ReferenceIdeal.Read.val_main_v89 (F := Ideal) x0 x1 x2 x3 x4 x5 x6 x7 x8 x9 x10 := by
  show StableHlo.after hostOps3_2 (StableHlo.after hostOps3_1 (StableHlo.after hostOps3 (W10 m ρ c))) (Proc.devRef .tc main_v73) = _
  dsimp only [hostOps3_2, hostOps3_1, hostOps3]
  after_results_simp
  rw [hin, h2, h9, h10]
  simp only [Cert.ReferenceIdeal.Read.val_main_v89, Cert.ReferenceIdeal.Read.val_main_v88, Cert.ReferenceIdeal.Read.val_main_v87, Cert.ReferenceIdeal.Read.val_main_v86, Cert.ReferenceIdeal.Read.val_main_v85, Cert.ReferenceIdeal.Read.val_main_v84, Cert.ReferenceIdeal.Read.val_main_v83, Cert.ReferenceIdeal.Read.val_main_v82, Cert.ReferenceIdeal.Read.val_main_call5_v1, Cert.ReferenceIdeal.Read.val_main_call5_v0, Cert.ReferenceIdeal.Read.val_main_cst_17, Cert.ReferenceIdeal.Read.val_main_v81, Cert.ReferenceIdeal.Read.val_main_v80, Cert.ReferenceIdeal.Read.val_main_v79, Cert.ReferenceIdeal.Read.val_main_cst_16, Cert.ReferenceIdeal.Read.val_main_v78, Cert.ReferenceIdeal.Read.val_main_v77, Cert.ReferenceIdeal.Read.val_main_v76, Cert.ReferenceIdeal.Read.val_main_cst_15, Cert.ReferenceIdeal.Read.val_main_v75, Cert.ReferenceIdeal.Read.val_main_cst_14]
  rfl

end Cert.KernelIdeal.Hand

end
-- ==== Proof.EntryContents.lean ====
/-
  What the first tiled region finds. Before its first tiled region the kernel program runs five stretches of host
  operations on the edge lists `src` and `dst`: it counts, for every node, the edges ending at it and the edges leaving
  it (two scatter-additions of ones), raises each count to at least 1 and takes the power −1/2 (the two degree norms),
  packs the norms as the two columns of one array (column 0 the in-degree norm, column 1 the out-degree norm), forms the
  first layer's aggregated message (the in-degree scaled by the out-degree norm, gathered along the wrapped `src` and
  scatter-added along `dst` into zeros; the narrowing to bf16 and the widening back around the gather are the identity
  over the extended reals), and reshapes the first bias to a row. The reference program computes the same arrays by the
  same operations in the same order, so at the ideal instance each array the region reads is the reference's stage:

    * the aggregated message is the reference's (`entry0_agg`);
    * the packed norms hold at `(r, 0)` the reference's in-degree norm at `r` and at `(r, 1)` its out-degree norm at
      `r` (`entry0_normDst`, `entry0_normSrc`);
    * the bias row holds at `(0, j)` the bias at `j` (`entry0_bias`);
    * the weight and every other argument array are as launched, no host operation writing one (`entry0_weight` for
      the weight; `entry0_arg0`, `entry0_arg1`, `entry0_arg2` and `entry0_arg5` … `entry0_arg10` for the others; the
      bias array itself is read only through its row).

  Each proof folds the five stretches back to the launch memory, which leaves the operations' composed term over the
  launched `src` and `dst`, and compares it with the reference's stage unfolded to the same depth. The two programs
  declare their shapes and dimension records separately; they are the same records. The clamp `max 1 ·` is a
  three-operation function of each program, written at typed references; its operations are first restated at the
  buffers' own types, which they equal.
-/
import proofs.«181485_j46694884442368_2_alg».proof.Proof.Gen.KernelIdeal.Frame
import proofs.«181485_j46694884442368_2_alg».proof.Proof.Gen.ReferenceIdeal.Read
import Idealize.ShloMosaic.PureOps.Ideal
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx
  Idealize.ShloMosaic.StableHlo Idealize.SL.Sem

variable (m : (ℓ : Loc nD τ sig) → Buf (Elt Ideal) ℓ) (ρ : Dev nD → PrngReg) (c : Dev nD)

/-- The launch memory read at a TensorCore buffer. -/
theorem entry0_launch_at (b : Ref sig .tc) : W0 m ρ c (Proc.devRef .tc b) = m ((c : Thread nD τ).loc b) := rfl

/-! ### The two programs' dimension records are the same records -/

theorem entry0_dims_scatter1 : Cert.KernelIdeal.scatter_S100000_S1600000x1_S1600000_n_0_0_1 = Cert.ReferenceIdeal.scatter_S100000_S1600000x1_S1600000_n_0_0_1 := rfl
theorem entry0_dims_scatter2 : Cert.KernelIdeal.scatter_S100000x1_S1600000x1_S1600000x1_1_0_0_1 = Cert.ReferenceIdeal.scatter_S100000x1_S1600000x1_S1600000x1_1_0_0_1 := rfl
theorem entry0_dims_gather : Cert.KernelIdeal.gather_S100000x1_S1600000x1_S1600000x1_1_0_n_n_0_1_11 = Cert.ReferenceIdeal.gather_S100000x1_S1600000x1_S1600000x1_1_0_n_n_0_1_11 := rfl

/-! ### Over the extended reals a change of float format is the identity -/

theorem entry0_extf {s : Shape} (a : FVec Ideal s .bf16) : (extf .f32 a bitsLt_bf16_f32 : FVec Ideal s .f32) = a := rfl
theorem entry0_truncf {s : Shape} (a : FVec Ideal s .f32) : (truncf .bf16 a bitsLt_bf16_f32 : FVec Ideal s .bf16) = a := rfl

/-- The clamp of the out-degree, its three operations at the buffers' own types. -/
theorem entry0_clipSrc_ops : (hostOps0_1 : List (HloOp τ sig (Elt Ideal))) =
    [ StableHlo.unary main_cst_2 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.binary main_call0_v1 main_v6 main_v7 (maximumf (F := Ideal) (s := S100000) (φ := .f32) : (⟨S100000, .f32⟩ : BufTy).Contents (Elt Ideal) → (⟨S100000, .f32⟩ : BufTy).Contents (Elt Ideal) → (⟨S100000, .f32⟩ : BufTy).Contents (Elt Ideal)) ] := rfl

/-- The clamp of the in-degree, its three operations at the buffers' own types. -/
theorem entry0_clipDst_ops : (hostOps0_3 : List (HloOp τ sig (Elt Ideal))) =
    [ StableHlo.unary main_cst_4 main_call1_v0 (id : (⟨S_, .f32⟩ : BufTy).Contents (Elt Ideal) → (⟨S_, .f32⟩ : BufTy).Contents (Elt Ideal)),
      StableHlo.unary main_call1_v0 main_call1_v1 (broadcastInDim S100000 ![] bcast_S_S100000 : (⟨S_, .f32⟩ : BufTy).Contents (Elt Ideal) → (⟨S100000, .f32⟩ : BufTy).Contents (Elt Ideal)),
      StableHlo.binary main_call1_v1 main_v3 main_v10 (maximumf (F := Ideal) (s := S100000) (φ := .f32) : (⟨S100000, .f32⟩ : BufTy).Contents (Elt Ideal) → (⟨S100000, .f32⟩ : BufTy).Contents (Elt Ideal) → (⟨S100000, .f32⟩ : BufTy).Contents (Elt Ideal)) ] := rfl

/-- Folds the five stretches of host operations through to the launch memory. -/
local macro "entry_fold" : tactic =>
  `(tactic| (dsimp only [V5, W5, W4, W3, W2, W1]
             rw [entry0_clipSrc_ops, entry0_clipDst_ops]
             dsimp only [hostOps0_4, hostOps0_2, hostOps0]
             after_results_simp))

/-! ### The arrays the first region reads -/

set_option maxHeartbeats 4000000 in
/-- The first layer's aggregated message is the reference's. -/
theorem entry0_agg : (V5 m ρ c main_v30 : S100000x1.Idx → EReal) =
    Cert.ReferenceIdeal.Read.val_main_v25 (F := Ideal) (m ((c : Thread nD τ).loc main_arg0)) (m ((c : Thread nD τ).loc main_arg1)) := by
  entry_fold
  repeat rw [entry0_launch_at]
  rw [entry0_dims_scatter1, entry0_dims_scatter2, entry0_dims_gather]
  simp only [entry0_extf, entry0_truncf]
  (simp only [
    Cert.ReferenceIdeal.Read.val_main_v25, Cert.ReferenceIdeal.Read.val_main_v24,
    Cert.ReferenceIdeal.Read.val_main_v23, Cert.ReferenceIdeal.Read.val_main_cst_7,
    Cert.ReferenceIdeal.Read.val_main_v22, Cert.ReferenceIdeal.Read.val_main_v21,
    Cert.ReferenceIdeal.Read.val_main_v20, Cert.ReferenceIdeal.Read.val_main_v19,
    Cert.ReferenceIdeal.Read.val_main_v18, Cert.ReferenceIdeal.Read.val_main_c_6,
    Cert.ReferenceIdeal.Read.val_main_v17, Cert.ReferenceIdeal.Read.val_main_v16,
    Cert.ReferenceIdeal.Read.val_main_c, Cert.ReferenceIdeal.Read.val_main_v15,
    Cert.ReferenceIdeal.Read.val_main_v14, Cert.ReferenceIdeal.Read.val_main_v13,
    Cert.ReferenceIdeal.Read.val_main_v9, Cert.ReferenceIdeal.Read.val_main_v8,
    Cert.ReferenceIdeal.Read.val_main_cst_3, Cert.ReferenceIdeal.Read.val_main_v7,
    Cert.ReferenceIdeal.Read.val_main_call0_v1, Cert.ReferenceIdeal.Read.val_main_call0_v0,
    Cert.ReferenceIdeal.Read.val_main_cst_2, Cert.ReferenceIdeal.Read.val_main_v6,
    Cert.ReferenceIdeal.Read.val_main_v5, Cert.ReferenceIdeal.Read.val_main_v4,
    Cert.ReferenceIdeal.Read.val_main_cst_1, Cert.ReferenceIdeal.Read.val_main_v3,
    Cert.ReferenceIdeal.Read.val_main_v2, Cert.ReferenceIdeal.Read.val_main_v1,
    Cert.ReferenceIdeal.Read.val_main_cst_0, Cert.ReferenceIdeal.Read.val_main_v0,
    Cert.ReferenceIdeal.Read.val_main_cst]) <;> rfl

/-- A norm broadcast to one column, read at node `r`, is the norm at `r`. -/
theorem entry0_column_apply (x : S100000.Idx → EReal) (r : Fin 100000) :
    broadcastInDim S100000x1 ![0] bcast_S100000_S100000x1_0 x (ix2 r (0 : Fin 1)) = x (ix1 r) :=
  broadcastInDim_apply _ bcast_S100000_S100000x1_0 x (ix2 r (0 : Fin 1)) (ix1 r) (fun a => match a with
    | ⟨0, _⟩ => by show r.val = if (100000 : Nat) = 1 then 0 else r.val; rw [if_neg (by decide)])

set_option maxHeartbeats 4000000 in
/-- Column 0 of the packed norms at node `r` is the reference's in-degree norm at `r`. -/
theorem entry0_normDst (r : Fin 100000) : (V5 m ρ c main_v15 : S100000x2.Idx → EReal) (ix2 r (0 : Fin 2)) =
    Cert.ReferenceIdeal.Read.val_main_v12 (F := Ideal) (m ((c : Thread nD τ).loc main_arg1)) (ix1 r) := by
  entry_fold
  rw [concatenate_pair_apply_left (s₁ := S100000x1) (s₂ := S100000x1) (t := S100000x2) (1 : Fin 2) _ _
    concatenates_S100000x1_S100000x1_S100000x2_d1 (ix2 r (0 : Fin 2)) rfl (ix2 r (0 : Fin 1))
    (fun b => match b with | ⟨0, _⟩ => rfl | ⟨1, _⟩ => rfl)]
  rw [entry0_column_apply]
  repeat rw [entry0_launch_at]
  rw [entry0_dims_scatter1]
  (simp only [
    Cert.ReferenceIdeal.Read.val_main_v12, Cert.ReferenceIdeal.Read.val_main_v11,
    Cert.ReferenceIdeal.Read.val_main_cst_5, Cert.ReferenceIdeal.Read.val_main_v10,
    Cert.ReferenceIdeal.Read.val_main_call1_v1, Cert.ReferenceIdeal.Read.val_main_call1_v0,
    Cert.ReferenceIdeal.Read.val_main_cst_4, Cert.ReferenceIdeal.Read.val_main_v3,
    Cert.ReferenceIdeal.Read.val_main_v2, Cert.ReferenceIdeal.Read.val_main_v1,
    Cert.ReferenceIdeal.Read.val_main_cst_0, Cert.ReferenceIdeal.Read.val_main_v0,
    Cert.ReferenceIdeal.Read.val_main_cst]) <;> rfl

set_option maxHeartbeats 4000000 in
/-- Column 1 of the packed norms at node `r` is the reference's out-degree norm at `r`. -/
theorem entry0_normSrc (r : Fin 100000) : (V5 m ρ c main_v15 : S100000x2.Idx → EReal) (ix2 r (1 : Fin 2)) =
    Cert.ReferenceIdeal.Read.val_main_v9 (F := Ideal) (m ((c : Thread nD τ).loc main_arg0)) (ix1 r) := by
  entry_fold
  rw [concatenate_pair_apply_right (s₁ := S100000x1) (s₂ := S100000x1) (t := S100000x2) (1 : Fin 2) _ _
    concatenates_S100000x1_S100000x1_S100000x2_d1 (ix2 r (1 : Fin 2)) rfl rfl (ix2 r (0 : Fin 1))
    (fun b => match b with | ⟨0, _⟩ => fun _ => rfl | ⟨1, _⟩ => fun h => absurd rfl h) rfl]
  rw [entry0_column_apply]
  repeat rw [entry0_launch_at]
  rw [entry0_dims_scatter1]
  (simp only [
    Cert.ReferenceIdeal.Read.val_main_v9, Cert.ReferenceIdeal.Read.val_main_v8,
    Cert.ReferenceIdeal.Read.val_main_cst_3, Cert.ReferenceIdeal.Read.val_main_v7,
    Cert.ReferenceIdeal.Read.val_main_call0_v1, Cert.ReferenceIdeal.Read.val_main_call0_v0,
    Cert.ReferenceIdeal.Read.val_main_cst_2, Cert.ReferenceIdeal.Read.val_main_v6,
    Cert.ReferenceIdeal.Read.val_main_v5, Cert.ReferenceIdeal.Read.val_main_v4,
    Cert.ReferenceIdeal.Read.val_main_cst_1, Cert.ReferenceIdeal.Read.val_main_v0,
    Cert.ReferenceIdeal.Read.val_main_cst]) <;> rfl

/-- The bias as a row, read at feature `j`, is the bias at `j`. -/
theorem entry0_bias (j : Fin 128) : (V5 m ρ c main_v31 : S1x128.Idx → EReal) (ix2 (0 : Fin 1) j) =
    (m ((c : Thread nD τ).loc main_arg4) : S128.Idx → EReal) (ix1 j) := by
  entry_fold
  exact shapeCast_apply _ shapeCasts_S128_S1x128 (ix2 (0 : Fin 1) j) (ix1 j)
    (by rw [Shape.rowMajor_val_one, Shape.rowMajor_val_two]; show j.val = 0 * 128 + j.val; omega)

/-! ### The arguments are as launched: no host operation writes one -/

/-- The first layer's weight is as launched. -/
theorem entry0_weight : V5 m ρ c main_arg3 = m ((c : Thread nD τ).loc main_arg3) := by
  entry_fold

theorem entry0_arg0 : W5 m ρ c (Proc.devRef .tc main_arg0) = m ((c : Thread nD τ).loc main_arg0) := by
  entry_fold

theorem entry0_arg1 : W5 m ρ c (Proc.devRef .tc main_arg1) = m ((c : Thread nD τ).loc main_arg1) := by
  entry_fold

theorem entry0_arg2 : W5 m ρ c (Proc.devRef .tc main_arg2) = m ((c : Thread nD τ).loc main_arg2) := by
  entry_fold

theorem entry0_arg5 : W5 m ρ c (Proc.devRef .tc main_arg5) = m ((c : Thread nD τ).loc main_arg5) := by
  entry_fold

theorem entry0_arg6 : W5 m ρ c (Proc.devRef .tc main_arg6) = m ((c : Thread nD τ).loc main_arg6) := by
  entry_fold

theorem entry0_arg7 : W5 m ρ c (Proc.devRef .tc main_arg7) = m ((c : Thread nD τ).loc main_arg7) := by
  entry_fold

theorem entry0_arg8 : W5 m ρ c (Proc.devRef .tc main_arg8) = m ((c : Thread nD τ).loc main_arg8) := by
  entry_fold

theorem entry0_arg9 : W5 m ρ c (Proc.devRef .tc main_arg9) = m ((c : Thread nD τ).loc main_arg9) := by
  entry_fold

theorem entry0_arg10 : W5 m ρ c (Proc.devRef .tc main_arg10) = m ((c : Thread nD τ).loc main_arg10) := by
  entry_fold

end Cert.KernelIdeal.Hand

end
-- ==== Proof.KernelValue.lean ====
/-
  The kernel program's result is the reference's result, as one function of the launch arguments.

  Walking the program's boundaries in order, each buffer that matters holds the reference's stage of the same name:
  entering the first region the aggregated messages are the reference's first aggregation, the two columns of the packed
  norms its two degree norms, the bias row its first bias; after the region the output array is the dense stage of those
  (the region's post), which is the reference's first layer (its three layers are each that dense stage); the next
  stretch's gather and scatter-add are the reference's, so the second region is entered with the reference's second
  aggregation; and so on through the second and third regions; the pooling tail is the reference's. The packed norms and
  the arguments are carried unchanged across every boundary.
-/
import proofs.«181485_j46694884442368_2_alg».proof.Proof.Region0
import proofs.«181485_j46694884442368_2_alg».proof.Proof.Region1
import proofs.«181485_j46694884442368_2_alg».proof.Proof.Region2
import proofs.«181485_j46694884442368_2_alg».proof.Proof.RefLayers
import proofs.«181485_j46694884442368_2_alg».proof.Proof.Carry
import proofs.«181485_j46694884442368_2_alg».proof.Proof.Stages
import proofs.«181485_j46694884442368_2_alg».proof.Proof.EntryContents

set_option maxRecDepth 16384

noncomputable section

namespace Cert.KernelIdeal.Hand

open Cert.KernelIdeal Cert.KernelIdeal.Gen Cert.GraphConv
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The packed norms at every region's entry are the reference's two norms -/

theorem norms1_dst (r : Fin 100000) : (V7 m ρ c main_v15 : S100000x2.Idx → EReal) (ix2 r (0 : Fin 2)) = Cert.ReferenceIdeal.RefValue.normDst (m ((c : Thread nD τ).loc main_arg1)) r :=
  (congrArg (fun f : S100000x2.Idx → EReal => f (ix2 r (0 : Fin 2))) (carry7_v15 m ρ c)).trans (entry0_normDst m ρ c r)
theorem norms1_src (r : Fin 100000) : (V7 m ρ c main_v15 : S100000x2.Idx → EReal) (ix2 r (1 : Fin 2)) = Cert.ReferenceIdeal.RefValue.normSrc (m ((c : Thread nD τ).loc main_arg0)) r :=
  (congrArg (fun f : S100000x2.Idx → EReal => f (ix2 r (1 : Fin 2))) (carry7_v15 m ρ c)).trans (entry0_normSrc m ρ c r)
theorem norms2_dst (r : Fin 100000) : (V9 m ρ c main_v15 : S100000x2.Idx → EReal) (ix2 r (0 : Fin 2)) = Cert.ReferenceIdeal.RefValue.normDst (m ((c : Thread nD τ).loc main_arg1)) r :=
  (congrArg (fun f : S100000x2.Idx → EReal => f (ix2 r (0 : Fin 2))) (carry9_v15 m ρ c)).trans (entry0_normDst m ρ c r)

/-! ## The first layer -/

/-- After the first region its output array is the reference's first layer (scaled for the next gather). -/
theorem exit0_features : W6 m ρ c (Proc.devRef .tc main_v32) = Cert.ReferenceIdeal.Read.val_main_v35 (F := Ideal) (m ((c : Thread nD τ).loc main_arg0)) (m ((c : Thread nD τ).loc main_arg1)) (m ((c : Thread nD τ).loc main_arg3)) (m ((c : Thread nD τ).loc main_arg4)) := by
  refine (W6_arr m ρ c 4).trans ?_
  rw [region0_array (V5 m ρ) c]
  rw [packedScaled_eq _ _ _ _ (Cert.ReferenceIdeal.RefValue.normDst (m ((c : Thread nD τ).loc main_arg1))) (Cert.ReferenceIdeal.RefValue.normSrc (m ((c : Thread nD τ).loc main_arg0))) (fun j => ((m ((c : Thread nD τ).loc main_arg4)) : S128.Idx → EReal) (ix1 j))
    (entry0_normDst m ρ c) (entry0_normSrc m ρ c) (entry0_bias m ρ c)]
  rw [entry0_agg m ρ c, entry0_weight m ρ c]
  exact (Cert.ReferenceIdeal.RefValue.layer1 _ _ _ _).symm

/-! ## The second layer -/

theorem entry1_messages : W7 m ρ c (Proc.devRef .tc main_v43) = Cert.ReferenceIdeal.Read.val_main_v45 (F := Ideal) (m ((c : Thread nD τ).loc main_arg0)) (m ((c : Thread nD τ).loc main_arg1)) (m ((c : Thread nD τ).loc main_arg3)) (m ((c : Thread nD τ).loc main_arg4)) :=
  entry1_agg m ρ c _ _ _ _ (exit0_features m ρ c) ((carry6_arg0 m ρ c).trans (entry0_arg0 m ρ c)) ((carry6_arg1 m ρ c).trans (entry0_arg1 m ρ c))

theorem exit1_features : W8 m ρ c (Proc.devRef .tc main_v45) = Cert.ReferenceIdeal.Read.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 4).trans ?_
  rw [region1_array (V7 m ρ) c]
  rw [packedScaled_eq _ _ _ _ (Cert.ReferenceIdeal.RefValue.normDst (m ((c : Thread nD τ).loc main_arg1))) (Cert.ReferenceIdeal.RefValue.normSrc (m ((c : Thread nD τ).loc main_arg0))) (fun j => ((m ((c : Thread nD τ).loc main_arg6)) : S128.Idx → EReal) (ix1 j))
    (norms1_dst m ρ c) (norms1_src m ρ c) (entry1_bias m ρ c _ ((carry6_arg6 m ρ c).trans (entry0_arg6 m ρ c)))]
  rw [show V7 m ρ c main_v43 = _ from entry1_messages m ρ c, show V7 m ρ c main_arg5 = _ from (carry7_arg5 m ρ c).trans (entry0_arg5 m ρ c)]
  exact (Cert.ReferenceIdeal.RefValue.layer2 _ _ _ _ _ _).symm

/-! ## The third layer -/

theorem entry2_messages : W9 m ρ c (Proc.devRef .tc main_v56) = Cert.ReferenceIdeal.Read.val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  entry2_agg m ρ c _ _ _ _ _ _ (exit1_features m ρ c) ((carry8_arg0 m ρ c).trans (entry0_arg0 m ρ c)) ((carry8_arg1 m ρ c).trans (entry0_arg1 m ρ c))

theorem exit2_features : W10 m ρ c (Proc.devRef .tc main_v58) = Cert.ReferenceIdeal.Read.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 4).trans ?_
  rw [region2_array (V9 m ρ) c]
  rw [packedPlain_eq _ _ _ _ (Cert.ReferenceIdeal.RefValue.normDst (m ((c : Thread nD τ).loc main_arg1))) (fun j => ((m ((c : Thread nD τ).loc main_arg8)) : S128.Idx → EReal) (ix1 j))
    (norms2_dst m ρ c) (entry2_bias m ρ c _ ((carry8_arg8 m ρ c).trans (entry0_arg8 m ρ c)))]
  rw [show V9 m ρ c main_v56 = _ from entry2_messages m ρ c, show V9 m ρ c main_arg7 = _ from (carry9_arg7 m ρ c).trans (entry0_arg7 m ρ c)]
  exact (Cert.ReferenceIdeal.RefValue.layer3 _ _ _ _ _ _ _ _).symm

/-! ## The result -/

/-- The kernel program's result array, at the return, is the reference's result stage of the launch arguments. -/
theorem kernel_value : W13 m ρ c (Proc.devRef .tc main_v73)
    = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  tail_value m ρ c _ _ _ _ _ _ _ _ _ _ _ (exit2_features m ρ c)
    ((carry10_arg2 m ρ c).trans (entry0_arg2 m ρ c)) ((carry10_arg9 m ρ c).trans (entry0_arg9 m ρ c)) ((carry10_arg10 m ρ c).trans (entry0_arg10 m ρ c))

end Cert.KernelIdeal.Hand

end
-- ==== Proof.lean ====
/-
  A three-layer graph convolution on a batch of graphs (100000 nodes, 1600000 edges, 64 graphs), computed two ways.

  Both programs form each node's in- and out-degree from the edge lists, the two norms nd = max(1, in-degree)^(−1/2)
  and ns = max(1, out-degree)^(−1/2), and then three times: scale the node features by ns, gather them along the
  edges' sources, sum them at the edges' targets, scale by nd, multiply by the layer's weight, add its bias, and
  compare with zero; finally they average the node features within each graph and apply a linear classifier.

  The reference does all of it with whole-array host operations. The kernel program does the per-node dense stage —
  "scale by nd, weight, bias, compare with zero", and for the first two layers "scale by ns" for the NEXT gather — in a
  tiled region of 20 row blocks of 5000 nodes, with the two norms packed as the columns of one array; it rounds the
  scaled features to a narrower float format before each gather and rounds the product's operands likewise.

  At the ideal instance (floats are extended reals, operations exact, a change of format the identity) the two
  results are equal for every input, element by element. No algebraic law is involved: the kernel program applies the
  same operations in the same order, and what has to be shown is only structural — a block of rows of the dense stage
  is the dense stage's rows (a row of a matrix product uses only that row of the left factor), the 20 blocks cover all
  the nodes, a column cut out of the packed norms is that norm, a bias reshaped to one row and broadcast is the bias.
  In particular nothing needs the inputs to be finite: the precondition is never opened.

  The modules: DenseLayer (the dense stage at a node and a feature), PackedLayer (the same with packed norms),
  Payloads (what a grid point stores, at a row and a column), Region0 / Region1 / Region2 (each region's output array
  after all its points), EntryContents, Carry and Stages (what each stretch of host operations leaves, against the
  reference's stages), RefLayers (the reference's three layers are the dense stage), KernelRun (the kernel program's
  run with its result kept), KernelValue (the result is the reference's result stage of the arguments), and here the
  five claims.
-/
import proofs.«181485_j46694884442368_2_alg».proof.Defs
import proofs.«181485_j46694884442368_2_alg».proof.Proof.Gen.Kernel
import proofs.«181485_j46694884442368_2_alg».proof.Proof.Gen.Kernel.Frame
import proofs.«181485_j46694884442368_2_alg».proof.Proof.Gen.KernelIdeal
import proofs.«181485_j46694884442368_2_alg».proof.Proof.Gen.KernelIdeal.Frame
import proofs.«181485_j46694884442368_2_alg».proof.Proof.Gen.ReferenceIdeal
import proofs.«181485_j46694884442368_2_alg».proof.Proof.Gen.ReferenceIdeal.Run
import proofs.«181485_j46694884442368_2_alg».proof.Proof.Gen.ReferenceIdeal.Read
import proofs.«181485_j46694884442368_2_alg».proof.Proof.Gen.Pre_finite_inputs
import proofs.«181485_j46694884442368_2_alg».proof.Proof.KernelRun
import proofs.«181485_j46694884442368_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read at the ideal instance. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel program. -/
theorem preserves : Cert.preserves_Kernel_KernelIdeal := trivial

/-- From memories agreeing on the eleven arguments, both programs run, and the kernel program's result array is the
    reference's: both are the reference's result stage of the arguments. -/
theorem algebraic : Cert.algebraic_KernelIdeal_ReferenceIdeal := by
  intro m ρ m' ρ' _ hagree
  refine ⟨fun c => Cert.KernelIdeal.Gen.W13 m ρ c (Proc.devRef .tc Cert.KernelIdeal.main_v73), Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  exact (Cert.KernelIdeal.Hand.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
